-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x1024 : Shape := ⟨3, ![256, 64, 1024]⟩
abbrev S64x1024 : Shape := ⟨2, ![64, 1024]⟩
abbrev S64x64 : Shape := ⟨2, ![64, 64]⟩
abbrev S64x1 : Shape := ⟨2, ![64, 1]⟩
abbrev S1x64x128 : Shape := ⟨3, ![1, 64, 128]⟩
abbrev S128x8x1 : Shape := ⟨3, ![128, 8, 1]⟩
abbrev S128x8 : Shape := ⟨2, ![128, 8]⟩
abbrev S_ : Shape := ⟨0, ![]⟩
abbrev S64 : Shape := ⟨1, ![64]⟩

class Facts : Prop where
  bcast_S_S256x64x1024 : S_.BroadcastsInDim S256x64x1024 (![] : Fin 0 → Fin S256x64x1024.rank)
  reducesTo_S256x64x1024_S_d0_1_2 : S256x64x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1x64x128 : S_.BroadcastsInDim S1x64x128 (![] : Fin 0 → Fin S1x64x128.rank)
  reducesTo_S1x64x128_S_d0_1_2 : S1x64x128.ReducesTo [0, 1, 2] S_
  bcast_S_S128x8x1 : S_.BroadcastsInDim S128x8x1 (![] : Fin 0 → Fin S128x8x1.rank)
  reducesTo_S128x8x1_S_d0_1_2 : S128x8x1.ReducesTo [0, 1, 2] S_
  bcast_S_S128x8 : S_.BroadcastsInDim S128x8 (![] : Fin 0 → Fin S128x8.rank)
  reducesTo_S128x8_S_d0_1 : S128x8.ReducesTo [0, 1] S_
  reducesTo_S64x64_S64_d1 : S64x64.ReducesTo [1] S64
  bcast_S_S64 : S_.BroadcastsInDim S64 (![] : Fin 0 → Fin S64.rank)
  reducesTo_S64_S_d0 : S64.ReducesTo [0] S_

variable [Facts]

def fn_part2 {F : FTy → Type} [FloatOps F] (main_arg2 : FVec F S64x64 .f32) (main_arg6 : IVec S128x8 32) (main_v32 : IVec S_ 1) (main_c_12 : IVec S_ 32) : IVec S_ 1 :=
  let main_v33 : IVec S128x8 32 := broadcastInDim S128x8 ![] bcast_S_S128x8 main_c_12
  let main_v34 : IVec S128x8 1 := cmpi .slt main_arg6 main_v33
  let main_c_13 : IVec S_ 1 := constantI S_ 1 1#1
  let main_v35 : IVec S_ 1 := (fun x v => Host.reduce IntOp.andi x v reducesTo_S128x8_S_d0_1 h_S_) main_v34 main_c_13
  let main_v36 : IVec S_ 1 := andi main_v32 main_v35
  let main_v37 : FVec F S64x64 .f32 := mulf main_arg2 main_arg2
  let main_cst_14 : FVec F S_ .f32 := constant S_ .f32 0x00000000#32
  let main_v38 : FVec F S64 .f32 := (fun x v => Host.reduceAdd x v reducesTo_S64x64_S64_d1 h_S_) main_v37 main_cst_14
  let main_cst_15 : FVec F S_ .f32 := constant S_ .f32 0x00000000#32
  let main_v39 : FVec F S64 .f32 := broadcastInDim S64 ![] bcast_S_S64 main_cst_15
  let main_v40 : IVec S64 1 := cmpf .ogt main_v38 main_v39
  let main_c_16 : IVec S_ 1 := constantI S_ 1 1#1
  let main_v41 : IVec S_ 1 := (fun x v => Host.reduce IntOp.andi x v reducesTo_S64_S_d0 h_S_) main_v40 main_c_16
  let main_v42 : IVec S_ 1 := andi main_v36 main_v41
  main_v42

def fn_part1 {F : FTy → Type} [FloatOps F] (main_arg2 : FVec F S64x64 .f32) (main_arg4 : FVec F S1x64x128 .f32) (main_arg5 : FVec F S128x8x1 .f32) (main_arg6 : IVec S128x8 32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1x64x128 .f32 := Host.absf main_arg4
  let main_cst_6 : FVec F S_ .f32 := constant S_ .f32 0x7F800000#32
  let main_v20 : FVec F S1x64x128 .f32 := broadcastInDim S1x64x128 ![] bcast_S_S1x64x128 main_cst_6
  let main_v21 : IVec S1x64x128 1 := cmpf .olt main_v19 main_v20
  let main_c_7 : IVec S_ 1 := constantI S_ 1 1#1
  let main_v22 : IVec S_ 1 := (fun x v => Host.reduce IntOp.andi x v reducesTo_S1x64x128_S_d0_1_2 h_S_) main_v21 main_c_7
  let main_v23 : IVec S_ 1 := andi main_v18 main_v22
  let main_v24 : FVec F S128x8x1 .f32 := Host.absf main_arg5
  let main_cst_8 : FVec F S_ .f32 := constant S_ .f32 0x7F800000#32
  let main_v25 : FVec F S128x8x1 .f32 := broadcastInDim S128x8x1 ![] bcast_S_S128x8x1 main_cst_8
  let main_v26 : IVec S128x8x1 1 := cmpf .olt main_v24 main_v25
  let main_c_9 : IVec S_ 1 := constantI S_ 1 1#1
  let main_v27 : IVec S_ 1 := (fun x v => Host.reduce IntOp.andi x v reducesTo_S128x8x1_S_d0_1_2 h_S_) main_v26 main_c_9
  let main_v28 : IVec S_ 1 := andi main_v23 main_v27
  let main_c_10 : IVec S_ 32 := constantI S_ 32 0#32
  let main_v29 : IVec S128x8 32 := broadcastInDim S128x8 ![] bcast_S_S128x8 main_c_10
  let main_v30 : IVec S128x8 1 := cmpi .sge main_arg6 main_v29
  let main_c_11 : IVec S_ 1 := constantI S_ 1 1#1
  let main_v31 : IVec S_ 1 := (fun x v => Host.reduce IntOp.andi x v reducesTo_S128x8_S_d0_1 h_S_) main_v30 main_c_11
  let main_v32 : IVec S_ 1 := andi main_v28 main_v31
  let main_c_12 : IVec S_ 32 := constantI S_ 32 1024#32
  fn_part2 (F := F) main_arg2 main_arg6 main_v32 main_c_12

def fn {F : FTy → Type} [FloatOps F] (main_arg0 : FVec F S256x64x1024 .f32) (main_arg1 : FVec F S64x1024 .f32) (main_arg2 : FVec F S64x64 .f32) (main_arg3 : FVec F S64x1 .f32) (main_arg4 : FVec F S1x64x128 .f32) (main_arg5 : FVec F S128x8x1 .f32) (main_arg6 : IVec S128x8 32) : IVec S_ 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_c : IVec S_ 1 := constantI S_ 1 1#1
  let main_v3 : IVec S_ 1 := (fun x v => Host.reduce IntOp.andi x v reducesTo_S256x64x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg2 main_arg4 main_arg5 main_arg6 main_v13 main_v16
-- ==== Kernel.lean ====
abbrev S256x64x1024 : Shape := ⟨3, ![256, 64, 1024]⟩
abbrev S64x1024 : Shape := ⟨2, ![64, 1024]⟩
abbrev S64x64 : Shape := ⟨2, ![64, 64]⟩
abbrev S64x1 : Shape := ⟨2, ![64, 1]⟩
abbrev S1x64x128 : Shape := ⟨3, ![1, 64, 128]⟩
abbrev S128x8x1 : Shape := ⟨3, ![128, 8, 1]⟩
abbrev S128x8 : Shape := ⟨2, ![128, 8]⟩
abbrev S8x128 : Shape := ⟨2, ![8, 128]⟩
abbrev S256x64x128 : Shape := ⟨3, ![256, 64, 128]⟩
abbrev S8x64x1024 : Shape := ⟨3, ![8, 64, 1024]⟩
abbrev S8x64x128 : Shape := ⟨3, ![8, 64, 128]⟩
abbrev S1024x128 : Shape := ⟨2, ![1024, 128]⟩
abbrev S1x128 : Shape := ⟨2, ![1, 128]⟩
abbrev S64 : Shape := ⟨1, ![64]⟩
abbrev S1x64x1024 : Shape := ⟨3, ![1, 64, 1024]⟩
abbrev S512x1024 : Shape := ⟨2, ![512, 1024]⟩
abbrev S512x128 : Shape := ⟨2, ![512, 128]⟩
abbrev S64x128 : Shape := ⟨2, ![64, 128]⟩

abbrev nBuf : Space → Nat
  | .hbm => 11
  | .vmem => 12
  | .smem => 0
  | _ => 0

abbrev bufTy : (tb : Table) → Fin (tcTables nBuf tb) → BufTy
  | .hbm, ⟨0, _⟩ => ⟨S256x64x1024, .f32⟩
  | .hbm, ⟨1, _⟩ => ⟨S64x1024, .f32⟩
  | .hbm, ⟨2, _⟩ => ⟨S64x64, .f32⟩
  | .hbm, ⟨3, _⟩ => ⟨S64x1, .f32⟩
  | .hbm, ⟨4, _⟩ => ⟨S1x64x128, .f32⟩
  | .hbm, ⟨5, _⟩ => ⟨S128x8x1, .f32⟩
  | .hbm, ⟨6, _⟩ => ⟨S128x8, .i32⟩
  | .hbm, ⟨7, _⟩ => ⟨S128x8, .f32⟩
  | .hbm, ⟨8, _⟩ => ⟨S8x128, .f32⟩
  | .hbm, ⟨9, _⟩ => ⟨S8x128, .i32⟩
  | .hbm, ⟨10, _⟩ => ⟨S256x64x128, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x64, .f32⟩
  | .local _ .vmem, ⟨4, _⟩ => ⟨S64x1, .f32⟩
  | .local _ .vmem, ⟨5, _⟩ => ⟨S1x64x128, .f32⟩
  | .local _ .vmem, ⟨6, _⟩ => ⟨S8x128, .f32⟩
  | .local _ .vmem, ⟨7, _⟩ => ⟨S8x128, .i32⟩
  | .local _ .vmem, ⟨8, _⟩ => ⟨S8x64x128, .f32⟩
  | .local _ .vmem, ⟨9, _⟩ => ⟨S8x64x128, .f32⟩
  | .local _ .vmem, ⟨10, _⟩ => ⟨S1024x128, .f32⟩
  | .local _ .vmem, ⟨11, _⟩ => ⟨S64x64, .f32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128x8x1_S128x8 : S128x8x1.ShapeCasts S128x8
  transposes_S128x8_S8x128_1_0 : S128x8.Transposes [1, 0] S8x128
  iota_S1024x128_d0_w32 : S1024x128.Iotas .tc 32 [0]
  inb_S8x128_S1x128_0_0 : ∀ a, (![0, 0] : Fin 2 → Nat) a + S1x128.size a ≤ S8x128.size a
  h_S1x128 : 0 < S1x128.numel
  shapeCasts_S1x128_S1x128 : S1x128.ShapeCasts S1x128
  broadcasts_S1x128_S1024x128 : S1x128.Broadcasts S1024x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S64x64_S64x64_0_0 : ∀ a, (![0, 0] : Fin 2 → Nat) a + S64x64.size a ≤ S64x64.size a
  h_S64x64 : 0 < S64x64.numel
  reduces_S64x64_S64 : S64x64.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  broadcasts_S64x1_S64x64 : S64x1.Broadcasts S64x64
  shapeCasts_S64x64_S64x64 : S64x64.ShapeCasts S64x64
  inb_S8x64x1024_S8x64x1024_0_0_0 : ∀ a, (![0, 0, 0] : Fin 3 → Nat) a + S8x64x1024.size a ≤ S8x64x1024.size a
  h_S8x64x1024 : 0 < S8x64x1024.numel
  inb_S64x1024_S64x1024_0_0 : ∀ a, (![0, 0] : Fin 2 → Nat) a + S64x1024.size a ≤ S64x1024.size a
  h_S64x1024 : 0 < S64x1024.numel
  shapeCasts_S64x1024_S1x64x1024 : S64x1024.ShapeCasts S1x64x1024
  broadcasts_S1x64x1024_S8x64x1024 : S1x64x1024.Broadcasts S8x64x1024
  shapeCasts_S8x64x1024_S512x1024 : S8x64x1024.ShapeCasts S512x1024
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  slices_S512x128_o0_0_S64x128 : S512x128.Slices ![0, 0] S64x128
  inb_S8x64x128_S1x64x128_0_0_0 : ∀ a, (![0, 0, 0] : Fin 3 → Nat) a + S1x64x128.size a ≤ S8x64x128.size a
  shapeCasts_S64x128_S1x64x128 : S64x128.ShapeCasts S1x64x128
  slices_S512x128_o64_0_S64x128 : S512x128.Slices ![64, 0] S64x128
  inb_S8x64x128_S1x64x128_1_0_0 : ∀ a, (![1, 0, 0] : Fin 3 → Nat) a + S1x64x128.size a ≤ S8x64x128.size a
  slices_S512x128_o128_0_S64x128 : S512x128.Slices ![128, 0] S64x128
  inb_S8x64x128_S1x64x128_2_0_0 : ∀ a, (![2, 0, 0] : Fin 3 → Nat) a + S1x64x128.size a ≤ S8x64x128.size a
  slices_S512x128_o192_0_S64x128 : S512x128.Slices ![192, 0] S64x128
  inb_S8x64x128_S1x64x128_3_0_0 : ∀ a, (![3, 0, 0] : Fin 3 → Nat) a + S1x64x128.size a ≤ S8x64x128.size a
  slices_S512x128_o256_0_S64x128 : S512x128.Slices ![256, 0] S64x128
  inb_S8x64x128_S1x64x128_4_0_0 : ∀ a, (![4, 0, 0] : Fin 3 → Nat) a + S1x64x128.size a ≤ S8x64x128.size a
  slices_S512x128_o320_0_S64x128 : S512x128.Slices ![320, 0] S64x128
  inb_S8x64x128_S1x64x128_5_0_0 : ∀ a, (![5, 0, 0] : Fin 3 → Nat) a + S1x64x128.size a ≤ S8x64x128.size a
  slices_S512x128_o384_0_S64x128 : S512x128.Slices ![384, 0] S64x128
  inb_S8x64x128_S1x64x128_6_0_0 : ∀ a, (![6, 0, 0] : Fin 3 → Nat) a + S1x64x128.size a ≤ S8x64x128.size a
  slices_S512x128_o448_0_S64x128 : S512x128.Slices ![448, 0] S64x128
  inb_S8x64x128_S1x64x128_7_0_0 : ∀ a, (![7, 0, 0] : Fin 3 → Nat) a + S1x64x128.size a ≤ S8x64x128.size a
  dot_S512x1024_S1024x128_S512x128_1_0_0_1_n_n_wf : DotDims.WF S512x1024 S1024x128 S512x128 [1] [0] [0] [1] [] []
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1024.size a ≤ S256x64x1024.size a
  hwx0_0 : ∀ i : grid0.Coords, EltTy.bits .f32 = 32 ∨ (Rect.block (s := S256x64x1024) S8x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64x128.size a ≤ S1x64x128.size a
  hwx0_4 : ∀ i : grid0.Coords, EltTy.bits .f32 = 32 ∨ (Rect.block (s := S1x64x128) S1x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .i32 = 32 ∨ (Rect.block (s := S8x128) S8x128.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x64x128.size a ≤ S256x64x128.size a
  hwx0_7 : ∀ i : grid0.Coords, EltTy.bits .f32 = 32 ∨ (Rect.block (s := S256x64x128) S8x64x128.size (cc0_transform_7 i) (hinb0_7 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_arg0) S8x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S8x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S8x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x64x1024 : Shape := ⟨3, ![256, 64, 1024]⟩
abbrev S64x1024 : Shape := ⟨2, ![64, 1024]⟩
abbrev S64x64 : Shape := ⟨2, ![64, 64]⟩
abbrev S64x1 : Shape := ⟨2, ![64, 1]⟩
abbrev S1x64x128 : Shape := ⟨3, ![1, 64, 128]⟩
abbrev S128x8x1 : Shape := ⟨3, ![128, 8, 1]⟩
abbrev S128x8 : Shape := ⟨2, ![128, 8]⟩
abbrev S1x64x1024 : Shape := ⟨3, ![1, 64, 1024]⟩
abbrev S16384x1024 : Shape := ⟨2, ![16384, 1024]⟩
abbrev S1024x16384 : Shape := ⟨2, ![1024, 16384]⟩
abbrev S_ : Shape := ⟨0, ![]⟩
abbrev S1 : Shape := ⟨1, ![1]⟩
abbrev S1x1x1 : Shape := ⟨3, ![1, 1, 1]⟩
abbrev S128x8x16384 : Shape := ⟨3, ![128, 8, 16384]⟩
abbrev S128x16384 : Shape := ⟨2, ![128, 16384]⟩
abbrev S32768x64 : Shape := ⟨2, ![32768, 64]⟩
abbrev S64 : Shape := ⟨1, ![64]⟩
abbrev S128x256x64 : Shape := ⟨3, ![128, 256, 64]⟩
abbrev S256x64x128 : Shape := ⟨3, ![256, 64, 128]⟩

abbrev nBuf : Space → Nat
  | .hbm => 55
  | .vmem => 0
  | .smem => 0
  | _ => 0

abbrev bufTy : (tb : Table) → Fin (tcTables nBuf tb) → BufTy
  | .hbm, ⟨0, _⟩ => ⟨S256x64x1024, .f32⟩
  | .hbm, ⟨1, _⟩ => ⟨S64x1024, .f32⟩
  | .hbm, ⟨2, _⟩ => ⟨S64x64, .f32⟩
  | .hbm, ⟨3, _⟩ => ⟨S64x1, .f32⟩
  | .hbm, ⟨4, _⟩ => ⟨S1x64x128, .f32⟩
  | .hbm, ⟨5, _⟩ => ⟨S128x8x1, .f32⟩
  | .hbm, ⟨6, _⟩ => ⟨S128x8, .i32⟩
  | .hbm, ⟨7, _⟩ => ⟨S1x64x1024, .f32⟩
  | .hbm, ⟨8, _⟩ => ⟨S256x64x1024, .f32⟩
  | .hbm, ⟨9, _⟩ => ⟨S256x64x1024, .f32⟩
  | .hbm, ⟨10, _⟩ => ⟨S16384x1024, .f32⟩
  | .hbm, ⟨11, _⟩ => ⟨S1024x16384, .f32⟩
  | .hbm, ⟨12, _⟩ => ⟨S_, .i32⟩
  | .hbm, ⟨13, _⟩ => ⟨S128x8, .i32⟩
  | .hbm, ⟨14, _⟩ => ⟨S128x8, .i1⟩
  | .hbm, ⟨15, _⟩ => ⟨S_, .i32⟩
  | .hbm, ⟨16, _⟩ => ⟨S128x8, .i32⟩
  | .hbm, ⟨17, _⟩ => ⟨S128x8, .i32⟩
  | .hbm, ⟨18, _⟩ => ⟨S128x8, .i32⟩
  | .hbm, ⟨19, _⟩ => ⟨S128x8x1, .i32⟩
  | .hbm, ⟨20, _⟩ => ⟨S1, .i32⟩
  | .hbm, ⟨21, _⟩ => ⟨S_, .i32⟩
  | .hbm, ⟨22, _⟩ => ⟨S128x8x1, .i32⟩
  | .hbm, ⟨23, _⟩ => ⟨S128x8x1, .i1⟩
  | .hbm, ⟨24, _⟩ => ⟨S1x1x1, .i32⟩
  | .hbm, ⟨25, _⟩ => ⟨S128x8x1, .i32⟩
  | .hbm, ⟨26, _⟩ => ⟨S128x8x1, .i1⟩
  | .hbm, ⟨27, _⟩ => ⟨S128x8x1, .i1⟩
  | .hbm, ⟨28, _⟩ => ⟨S_, .i1⟩
  | .hbm, ⟨29, _⟩ => ⟨S128x8, .i1⟩
  | .hbm, ⟨30, _⟩ => ⟨S128x8x16384, .f32⟩
  | .hbm, ⟨31, _⟩ => ⟨S128x8x16384, .i1⟩
  | .hbm, ⟨32, _⟩ => ⟨S_, .f32⟩
  | .hbm, ⟨33, _⟩ => ⟨S128x8x16384, .f32⟩
  | .hbm, ⟨34, _⟩ => ⟨S128x8x16384, .f32⟩
  | .hbm, ⟨35, _⟩ => ⟨S128x8x16384, .f32⟩
  | .hbm, ⟨36, _⟩ => ⟨S128x8x16384, .f32⟩
  | .hbm, ⟨37, _⟩ => ⟨S_, .f32⟩
  | .hbm, ⟨38, _⟩ => ⟨S128x16384, .f32⟩
  | .hbm, ⟨39, _⟩ => ⟨S32768x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S_, .f32⟩
  | .hbm, ⟨44, _⟩ => ⟨S64, .f32⟩
  | .hbm, ⟨45, _⟩ => ⟨S64x1, .f32⟩
  | .hbm, ⟨46, _⟩ => ⟨S64x1, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S32768x64, .f32⟩
  | .hbm, ⟨51, _⟩ => ⟨S128x256x64, .f32⟩
  | .hbm, ⟨52, _⟩ => ⟨S256x64x128, .f32⟩
  | .hbm, ⟨53, _⟩ => ⟨S256x64x128, .f32⟩
  | .hbm, ⟨54, _⟩ => ⟨S256x64x128, .f32⟩
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩

abbrev nD : Nat := 1
abbrev τ : Topo := Topo.v7x

variable {F : FTy → Type} [FloatOps F]

class Facts₀ : Prop where
  bcast_S64x1024_S1x64x1024_1_2 : S64x1024.BroadcastsInDim S1x64x1024 (![1, 2] : Fin 2 → Fin S1x64x1024.rank)
  bcast_S1x64x1024_S256x64x1024_0_1_2 : S1x64x1024.BroadcastsInDim S256x64x1024 (![0, 1, 2] : Fin 3 → Fin S256x64x1024.rank)
  shapeCasts_S256x64x1024_S16384x1024 : S256x64x1024.ShapeCasts S16384x1024
  transposes_S16384x1024_S1024x16384_1_0 : S16384x1024.Transposes [1, 0] S1024x16384
  bcast_S_S128x8 : S_.BroadcastsInDim S128x8 (![] : Fin 0 → Fin S128x8.rank)
  bcast_S128x8_S128x8x1_0_1 : S128x8.BroadcastsInDim S128x8x1 (![0, 1] : Fin 2 → Fin S128x8x1.rank)
  bcast_S_S128x8x1 : S_.BroadcastsInDim S128x8x1 (![] : Fin 0 → Fin S128x8x1.rank)
  bcast_S1_S1x1x1_2 : S1.BroadcastsInDim S1x1x1 (![2] : Fin 1 → Fin S1x1x1.rank)
  bcast_S1x1x1_S128x8x1_0_1_2 : S1x1x1.BroadcastsInDim S128x8x1 (![0, 1, 2] : Fin 3 → Fin S128x8x1.rank)
  reducesTo_S128x8x1_S128x8_d2 : S128x8x1.ReducesTo [2] S128x8
  h_S_ : 0 < S_.numel
  bcast_S128x8_S128x8x16384_0_1 : S128x8.BroadcastsInDim S128x8x16384 (![0, 1] : Fin 2 → Fin S128x8x16384.rank)
  bcast_S_S128x8x16384 : S_.BroadcastsInDim S128x8x16384 (![] : Fin 0 → Fin S128x8x16384.rank)
  bcast_S128x8x1_S128x8x16384_0_1_2 : S128x8x1.BroadcastsInDim S128x8x16384 (![0, 1, 2] : Fin 3 → Fin S128x8x16384.rank)
  reducesTo_S128x8x16384_S128x16384_d1 : S128x8x16384.ReducesTo [1] S128x16384
  shapeCasts_S128x16384_S32768x64 : S128x16384.ShapeCasts S32768x64
  bcast_S64x1_S64x64_0_1 : S64x1.BroadcastsInDim S64x64 (![0, 1] : Fin 2 → Fin S64x64.rank)
  reducesTo_S64x64_S64_d1 : S64x64.ReducesTo [1] S64
  bcast_S64_S64x1_0 : S64.BroadcastsInDim S64x1 (![0] : Fin 1 → Fin S64x1.rank)
  transposes_S64x64_S64x64_1_0 : S64x64.Transposes [1, 0] S64x64
  shapeCasts_S32768x64_S128x256x64 : S32768x64.ShapeCasts S128x256x64
  transposes_S128x256x64_S256x64x128_1_2_0 : S128x256x64.Transposes [1, 2, 0] S256x64x128
  bcast_S1x64x128_S256x64x128_0_1_2 : S1x64x128.BroadcastsInDim S256x64x128 (![0, 1, 2] : Fin 3 → Fin S256x64x128.rank)
  gather_S1024x16384_S128x8x1_S128x8x16384_2_0_n_n_0_2_116384_wf : GatherDims.WF S1024x16384 S128x8x1 S128x8x16384 [2] [0] [] [0] [] 2 ![1, 16384]
  dot_S32768x64_S64x64_S32768x64_1_0_0_1_n_n_wf : DotDims.WF S32768x64 S64x64 S32768x64 [1] [0] [0] [1] [] []

variable [Facts₀]

def gather_S1024x16384_S128x8x1_S128x8x16384_2_0_n_n_0_2_116384 : GatherDims S1024x16384 S128x8x1 S128x8x16384 where
  offsetDims := [2]
  collapsedSliceDims := [0]
  operandBatchingDims := []
  startIndicesBatchingDims := []
  startIndexMap := [0]
  indexVectorDim := 2
  sliceSizes := ![1, 16384]
  wf := gather_S1024x16384_S128x8x1_S128x8x16384_2_0_n_n_0_2_116384_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf

class Facts : Prop extends Facts₀ where

variable [Facts]
-- ==== Proof.KPieces.lean ====
/-
  The idealized kernel's body, as three pure terms of the blocks it loads.

  At the first grid point the body builds two tables and keeps them in scratch memory for the whole grid:
  the pooling matrix M[k, q] = Σ_j (A[q, j] = k ? mask[q, j] : 0), accumulated from zero one adjacency column at a
  time, and the weight-normalized matrix W[o, c] = g[o] · v[o, c] · rsqrt(Σ_d v[o, d]²). At every grid point it
  multiplies the eight batch rows of x (each scaled entrywise by the weight table w) by M in ONE [512, 1024] × [1024, 128]
  product, cuts the product into eight [64, 128] slabs, multiplies each by W and adds the bias. This module names those
  three terms over the generated payloads and shows that they are what each control case of the body leaves in the two
  scratch buffers and in the output's staging buffer.
-/
import proofs.«106361_g27376121544985_cont_9to1_1554_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The pooling matrix M, [1024, 128]: from the transposed mask x5 : [8, 128] and the transposed adjacency x6 : [8, 128],
    row j of each loaded as a [1, 128] vector; M = ((0 + S₀) + S₁) + … + S₇ with S_j[k, q] = (k = x6[j, q] ? x5[j, q] : 0). -/
def poolM (x5 : Vec F S8x128 .f32) (x6 : Vec F S8x128 .i32) : FVec F S1024x128 .f32 :=
  k0_pay6 (iota .tc S1024x128 32 [0] iota_S1024x128_d0_w32)
    (k0_pay4 (iota .tc S1024x128 32 [0] iota_S1024x128_d0_w32)
      (k0_pay1 (View.ld x6 (Rect.unit (s := S8x128) ![0, 0] S1x128.size inb_S8x128_S1x128_0_0)) (View.ld x5 (Rect.unit (s := S8x128) ![0, 0] S1x128.size inb_S8x128_S1x128_0_0)) (View.ld x6 (Rect.unit (s := S8x128) ![1, 0] S1x128.size inb_S8x128_S1x128_1_0)) (View.ld x5 (Rect.unit (s := S8x128) ![1, 0] S1x128.size inb_S8x128_S1x128_1_0)) (View.ld x6 (Rect.unit (s := S8x128) ![2, 0] S1x128.size inb_S8x128_S1x128_2_0)) (View.ld x5 (Rect.unit (s := S8x128) ![2, 0] S1x128.size inb_S8x128_S1x128_2_0)))
      (k0_pay2 (View.ld x5 (Rect.unit (s := S8x128) ![3, 0] S1x128.size inb_S8x128_S1x128_3_0))) (k0_pay3 (View.ld x6 (Rect.unit (s := S8x128) ![3, 0] S1x128.size inb_S8x128_S1x128_3_0)))
      (View.ld x6 (Rect.unit (s := S8x128) ![4, 0] S1x128.size inb_S8x128_S1x128_4_0)) (View.ld x5 (Rect.unit (s := S8x128) ![4, 0] S1x128.size inb_S8x128_S1x128_4_0)) (View.ld x6 (Rect.unit (s := S8x128) ![5, 0] S1x128.size inb_S8x128_S1x128_5_0)) (View.ld x5 (Rect.unit (s := S8x128) ![5, 0] S1x128.size inb_S8x128_S1x128_5_0)) (View.ld x6 (Rect.unit (s := S8x128) ![6, 0] S1x128.size inb_S8x128_S1x128_6_0)) (View.ld x5 (Rect.unit (s := S8x128) ![6, 0] S1x128.size inb_S8x128_S1x128_6_0)))
    (k0_pay5 (View.ld x6 (Rect.unit (s := S8x128) ![7, 0] S1x128.size inb_S8x128_S1x128_7_0))) (View.ld x5 (Rect.unit (s := S8x128) ![7, 0] S1x128.size inb_S8x128_S1x128_7_0))

/-- The normalized weights W, [64, 64]: from v = x2 : [64, 64] and g = x3 : [64, 1], W[o, c] = (g[o] · v[o, c]) · rsqrt(Σ_d v[o, d]²). -/
def normW (x2 : Vec F S64x64 .f32) (x3 : Vec F S64x1 .f32) : FVec F S64x64 .f32 := k0_pay7 x2 x3

/-- The output block, [8, 64, 128], of one grid point: slab b is W · (rows 64b … 64b+63 of (x ⊙ w) · M) + bias, the
    eight slabs stored one after the other (listed last store first). -/
def outBlk (x0 : Vec F S8x64x1024 .f32) (x1 : Vec F S64x1024 .f32) (x4 : Vec F S1x64x128 .f32)
    (M : Vec F S1024x128 .f32) (W : Vec F S64x64 .f32) : S8x64x128.Idx → Elt F .f32 :=
  View.canon (Val := Elt F)
    [⟨Rect.unit (s := S8x64x128) ![7, 0, 0] S1x64x128.size inb_S8x64x128_S1x64x128_7_0_0, k0_pay18 (k0_pay8 x0 x1 M) W (k0_pay9 x4)⟩,
     ⟨Rect.unit (s := S8x64x128) ![6, 0, 0] S1x64x128.size inb_S8x64x128_S1x64x128_6_0_0, k0_pay17 (k0_pay8 x0 x1 M) W (k0_pay9 x4)⟩,
     ⟨Rect.unit (s := S8x64x128) ![5, 0, 0] S1x64x128.size inb_S8x64x128_S1x64x128_5_0_0, k0_pay16 (k0_pay8 x0 x1 M) W (k0_pay9 x4)⟩,
     ⟨Rect.unit (s := S8x64x128) ![4, 0, 0] S1x64x128.size inb_S8x64x128_S1x64x128_4_0_0, k0_pay15 (k0_pay8 x0 x1 M) W (k0_pay9 x4)⟩,
     ⟨Rect.unit (s := S8x64x128) ![3, 0, 0] S1x64x128.size inb_S8x64x128_S1x64x128_3_0_0, k0_pay14 (k0_pay8 x0 x1 M) W (k0_pay9 x4)⟩,
     ⟨Rect.unit (s := S8x64x128) ![2, 0, 0] S1x64x128.size inb_S8x64x128_S1x64x128_2_0_0, k0_pay13 (k0_pay12 x0 x1 M W x4)⟩,
     ⟨Rect.unit (s := S8x64x128) ![1, 0, 0] S1x64x128.size inb_S8x64x128_S1x64x128_1_0_0, k0_pay11 x0 x1 M W x4⟩,
     ⟨Rect.unit (s := S8x64x128) ![0, 0, 0] S1x64x128.size inb_S8x64x128_S1x64x128_0_0_0, k0_pay10 x0 x1 M W x4⟩]

/-- The first grid point leaves the pooling matrix in the first scratch buffer. -/
theorem scratchM_first (c : Dev nD) (i : grid0.Coords) (arg1 : Memref sig .tc .vmem S8x64x1024 .f32) (harg1 : arg1.IsWhole) (arg2 : Memref sig .tc .vmem S64x1024 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S1x64x128 .f32) (harg5 : arg5.IsWhole) (arg6 : Memref sig .tc .vmem S8x128 .f32) (harg6 : arg6.IsWhole) (arg7 : Memref sig .tc .vmem S8x128 .i32) (harg7 : arg7.IsWhole) (arg8 : Memref sig .tc .vmem S8x64x128 .f32) (harg8 : arg8.IsWhole) (arg9 : Memref sig .tc .vmem S1024x128 .f32) (harg9 : arg9.IsWhole) (arg10 : Memref sig .tc .vmem S64x64 .f32) (harg10 : arg10.IsWhole) (hc0 : cond0_0 i) (x0 : Vec F S8x64x1024 .f32) (x1 : Vec F S64x1024 .f32) (x2 : Vec F S64x64 .f32) (x3 : Vec F S64x1 .f32) (x4 : Vec F S1x64x128 .f32) (x5 : Vec F S8x128 .f32) (x6 : Vec F S8x128 .i32) :
    sout0_A_0 c i arg1 harg1 arg2 harg2 arg3 harg3 arg4 harg4 arg5 harg5 arg6 harg6 arg7 harg7 arg8 harg8 arg9 harg9 arg10 harg10 hc0 x0 x1 x2 x3 x4 x5 x6 = poolM x5 x6 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S1024x128) hz2]
  simp only [View.readAt_eq_ld, harg6.read_unread, harg7.read_unread]
  rfl

/-- The first grid point leaves the normalized weights in the second scratch buffer. -/
theorem scratchW_first (c : Dev nD) (i : grid0.Coords) (arg1 : Memref sig .tc .vmem S8x64x1024 .f32) (harg1 : arg1.IsWhole) (arg2 : Memref sig .tc .vmem S64x1024 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S1x64x128 .f32) (harg5 : arg5.IsWhole) (arg6 : Memref sig .tc .vmem S8x128 .f32) (harg6 : arg6.IsWhole) (arg7 : Memref sig .tc .vmem S8x128 .i32) (harg7 : arg7.IsWhole) (arg8 : Memref sig .tc .vmem S8x64x128 .f32) (harg8 : arg8.IsWhole) (arg9 : Memref sig .tc .vmem S1024x128 .f32) (harg9 : arg9.IsWhole) (arg10 : Memref sig .tc .vmem S64x64 .f32) (harg10 : arg10.IsWhole) (hc0 : cond0_0 i) (x0 : Vec F S8x64x1024 .f32) (x1 : Vec F S64x1024 .f32) (x2 : Vec F S64x64 .f32) (x3 : Vec F S64x1 .f32) (x4 : Vec F S1x64x128 .f32) (x5 : Vec F S8x128 .f32) (x6 : Vec F S8x128 .i32) :
    sout0_A_1 c i arg1 harg1 arg2 harg2 arg3 harg3 arg4 harg4 arg5 harg5 arg6 harg6 arg7 harg7 arg8 harg8 arg9 harg9 arg10 harg10 hc0 x0 x1 x2 x3 x4 x5 x6 = normW x2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S64x64) hz2]
  simp only [View.readAt_eq_ld, harg3.read_unread, harg4.read_unread, View.ld_unit_zero (S := S64x64) hz2, View.ld_unit_zero (S := S64x1) hz2]
  rfl

/-- A later grid point, finding M and W in the scratch buffers, leaves the output block computed from them. -/
theorem out_later (c : Dev nD) (i : grid0.Coords) (arg1 : Memref sig .tc .vmem S8x64x1024 .f32) (harg1 : arg1.IsWhole) (arg2 : Memref sig .tc .vmem S64x1024 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S1x64x128 .f32) (harg5 : arg5.IsWhole) (arg6 : Memref sig .tc .vmem S8x128 .f32) (harg6 : arg6.IsWhole) (arg7 : Memref sig .tc .vmem S8x128 .i32) (harg7 : arg7.IsWhole) (arg8 : Memref sig .tc .vmem S8x64x128 .f32) (harg8 : arg8.IsWhole) (arg9 : Memref sig .tc .vmem S1024x128 .f32) (harg9 : arg9.IsWhole) (arg10 : Memref sig .tc .vmem S64x64 .f32) (harg10 : arg10.IsWhole) (hc0 : ¬cond0_0 i) (x0 : Vec F S8x64x1024 .f32) (x1 : Vec F S64x1024 .f32) (x2 : Vec F S64x64 .f32) (x3 : Vec F S64x1 .f32) (x4 : Vec F S1x64x128 .f32) (x5 : Vec F S8x128 .f32) (x6 : Vec F S8x128 .i32) (xs0 : Vec F S1024x128 .f32) (xs1 : Vec F S64x64 .f32) :
    out0_B_7 c i arg1 harg1 arg2 harg2 arg3 harg3 arg4 harg4 arg5 harg5 arg6 harg6 arg7 harg7 arg8 harg8 arg9 harg9 arg10 harg10 hc0 x0 x1 x2 x3 x4 x5 x6 xs0 xs1 = outBlk x0 x1 x4 xs0 xs1 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xs0 xs1)]
  unfold kernelRun0_B
  dsimp only
  sl_unfold_words
  simp only [View.readAt_eq_ld, harg1.read_unread, harg2.read_unread, harg5.read_unread, harg9.read_unread, harg10.read_unread,
    View.ld_unit_zero (S := S8x64x1024) hz3, View.ld_unit_zero (S := S64x1024) hz2, View.ld_unit_zero (S := S1x64x128) hz3,
    View.ld_unit_zero (S := S1024x128) hz2, View.ld_unit_zero (S := S64x64) hz2]
  rfl

/-- The first grid point reads back the two tables it has just stored, and leaves the output block computed from them. -/
theorem out_first (c : Dev nD) (i : grid0.Coords) (arg1 : Memref sig .tc .vmem S8x64x1024 .f32) (harg1 : arg1.IsWhole) (arg2 : Memref sig .tc .vmem S64x1024 .f32) (harg2 : arg2.IsWhole) (arg3 : Memref sig .tc .vmem S64x64 .f32) (harg3 : arg3.IsWhole) (arg4 : Memref sig .tc .vmem S64x1 .f32) (harg4 : arg4.IsWhole) (arg5 : Memref sig .tc .vmem S1x64x128 .f32) (harg5 : arg5.IsWhole) (arg6 : Memref sig .tc .vmem S8x128 .f32) (harg6 : arg6.IsWhole) (arg7 : Memref sig .tc .vmem S8x128 .i32) (harg7 : arg7.IsWhole) (arg8 : Memref sig .tc .vmem S8x64x128 .f32) (harg8 : arg8.IsWhole) (arg9 : Memref sig .tc .vmem S1024x128 .f32) (harg9 : arg9.IsWhole) (arg10 : Memref sig .tc .vmem S64x64 .f32) (harg10 : arg10.IsWhole) (hc0 : cond0_0 i) (x0 : Vec F S8x64x1024 .f32) (x1 : Vec F S64x1024 .f32) (x2 : Vec F S64x64 .f32) (x3 : Vec F S64x1 .f32) (x4 : Vec F S1x64x128 .f32) (x5 : Vec F S8x128 .f32) (x6 : Vec F S8x128 .i32) :
    out0_A_7 c i arg1 harg1 arg2 harg2 arg3 harg3 arg4 harg4 arg5 harg5 arg6 harg6 arg7 harg7 arg8 harg8 arg9 harg9 arg10 harg10 hc0 x0 x1 x2 x3 x4 x5 x6 = outBlk x0 x1 x4 (poolM x5 x6) (normW x2 x3) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readCov_unit_zero (S := S1024x128) _ hz2, View.readCov_unit_zero (S := S64x64) _ hz2,
    View.readAt_eq_ld, harg1.read_unread, harg2.read_unread, harg3.read_unread, harg4.read_unread, harg5.read_unread, harg6.read_unread, harg7.read_unread,
    View.ld_unit_zero (S := S8x64x1024) hz3, View.ld_unit_zero (S := S64x1024) hz2, View.ld_unit_zero (S := S1x64x128) hz3,
    View.ld_unit_zero (S := S64x64) hz2, View.ld_unit_zero (S := S64x1) hz2]
  rfl

end Cert.KernelIdeal.Body

end
-- ==== Proof.KInvariant.lean ====
/-
  What the grid leaves point by point.

  The first grid point stores the pooling matrix and the normalized weights into the two scratch buffers; no later point
  writes them, so after every point they hold those two tables, computed from the whole transposed mask, the whole transposed
  adjacency, v and g (each of those windows takes its whole array at every point). Hence every point's output block is the
  same function of that point's eight batch rows of x.
-/
import proofs.«106361_g27376121544985_cont_9to1_1554_2_alg».proof.Proof.KPieces
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ)

/-- Window 1 takes its whole array at every grid point (its block index never moves). -/
theorem iblk1_eq (c : Dev nD) (t : Fin cfg0.N) : (iblk m c 1 t : Vec F S64x1024 .f32) = V m c main_arg1 := by
  have hi : ∀ t : Fin cfg0.N, win0_1.index t 0 = 0 ∧ win0_1.index t 1 = 0 := (by decide +kernel : ∀ t : Fin grid0.N, _)
  funext j
  unfold iblk
  rw [View.read_apply]
  show V m c main_arg1 _ = V m c main_arg1 j
  congr 1
  funext a
  apply Fin.ext
  match a with
  | ⟨0, _⟩ => show win0_1.index t 0 * 64 + 1 * (j 0).val = (j 0).val; rw [(hi t).1]; omega
  | ⟨1, _⟩ => show win0_1.index t 1 * 1024 + 1 * (j 1).val = (j 1).val; rw [(hi t).2]; omega

/-- Window 2 takes its whole array at every grid point (its block index never moves). -/
theorem iblk2_eq (c : Dev nD) (t : Fin cfg0.N) : (iblk m c 2 t : Vec F S64x64 .f32) = V m c main_arg2 := by
  have hi : ∀ t : Fin cfg0.N, win0_2.index t 0 = 0 ∧ win0_2.index t 1 = 0 := (by decide +kernel : ∀ t : Fin grid0.N, _)
  funext j
  unfold iblk
  rw [View.read_apply]
  show V m c main_arg2 _ = V m c main_arg2 j
  congr 1
  funext a
  apply Fin.ext
  match a with
  | ⟨0, _⟩ => show win0_2.index t 0 * 64 + 1 * (j 0).val = (j 0).val; rw [(hi t).1]; omega
  | ⟨1, _⟩ => show win0_2.index t 1 * 64 + 1 * (j 1).val = (j 1).val; rw [(hi t).2]; omega

/-- Window 3 takes its whole array at every grid point (its block index never moves). -/
theorem iblk3_eq (c : Dev nD) (t : Fin cfg0.N) : (iblk m c 3 t : Vec F S64x1 .f32) = V m c main_arg3 := by
  have hi : ∀ t : Fin cfg0.N, win0_3.index t 0 = 0 ∧ win0_3.index t 1 = 0 := (by decide +kernel : ∀ t : Fin grid0.N, _)
  funext j
  unfold iblk
  rw [View.read_apply]
  show V m c main_arg3 _ = V m c main_arg3 j
  congr 1
  funext a
  apply Fin.ext
  match a with
  | ⟨0, _⟩ => show win0_3.index t 0 * 64 + 1 * (j 0).val = (j 0).val; rw [(hi t).1]; omega
  | ⟨1, _⟩ => show win0_3.index t 1 * 1 + 1 * (j 1).val = (j 1).val; rw [(hi t).2]; omega

/-- Window 4 takes its whole array at every grid point (its block index never moves). -/
theorem iblk4_eq (c : Dev nD) (t : Fin cfg0.N) : (iblk m c 4 t : Vec F S1x64x128 .f32) = V m c main_arg4 := by
  have hi : ∀ t : Fin cfg0.N, win0_4.index t 0 = 0 ∧ win0_4.index t 1 = 0 ∧ win0_4.index t 2 = 0 := (by decide +kernel : ∀ t : Fin grid0.N, _)
  funext j
  unfold iblk
  rw [View.read_apply]
  show V m c main_arg4 _ = V m c main_arg4 j
  congr 1
  funext a
  apply Fin.ext
  match a with
  | ⟨0, _⟩ => show win0_4.index t 0 * 1 + 1 * (j 0).val = (j 0).val; rw [(hi t).1]; omega
  | ⟨1, _⟩ => show win0_4.index t 1 * 64 + 1 * (j 1).val = (j 1).val; rw [(hi t).2.1]; omega
  | ⟨2, _⟩ => show win0_4.index t 2 * 128 + 1 * (j 2).val = (j 2).val; rw [(hi t).2.2]; omega

/-- Window 5 takes its whole array at every grid point (its block index never moves). -/
theorem iblk5_eq (c : Dev nD) (t : Fin cfg0.N) : (iblk m c 5 t : Vec F S8x128 .f32) = V m c main_v1 := by
  have hi : ∀ t : Fin cfg0.N, win0_5.index t 0 = 0 ∧ win0_5.index t 1 = 0 := (by decide +kernel : ∀ t : Fin grid0.N, _)
  funext j
  unfold iblk
  rw [View.read_apply]
  show V m c main_v1 _ = V m c main_v1 j
  congr 1
  funext a
  apply Fin.ext
  match a with
  | ⟨0, _⟩ => show win0_5.index t 0 * 8 + 1 * (j 0).val = (j 0).val; rw [(hi t).1]; omega
  | ⟨1, _⟩ => show win0_5.index t 1 * 128 + 1 * (j 1).val = (j 1).val; rw [(hi t).2]; omega

/-- Window 6 takes its whole array at every grid point (its block index never moves). -/
theorem iblk6_eq (c : Dev nD) (t : Fin cfg0.N) : (iblk m c 6 t : Vec F S8x128 .i32) = V m c main_v2 := by
  have hi : ∀ t : Fin cfg0.N, win0_6.index t 0 = 0 ∧ win0_6.index t 1 = 0 := (by decide +kernel : ∀ t : Fin grid0.N, _)
  funext j
  unfold iblk
  rw [View.read_apply]
  show V m c main_v2 _ = V m c main_v2 j
  congr 1
  funext a
  apply Fin.ext
  match a with
  | ⟨0, _⟩ => show win0_6.index t 0 * 8 + 1 * (j 0).val = (j 0).val; rw [(hi t).1]; omega
  | ⟨1, _⟩ => show win0_6.index t 1 * 128 + 1 * (j 1).val = (j 1).val; rw [(hi t).2]; omega

/-- The pooling matrix of the run: from the transposed mask and the transposed adjacency as the region finds them. -/
def tabM (c : Dev nD) : FVec F S1024x128 .f32 := poolM (V m c main_v1) (V m c main_v2)

/-- The normalized weights of the run: from v and g. -/
def tabW (c : Dev nD) : FVec F S64x64 .f32 := normW (V m c main_arg2) (V m c main_arg3)

/-- After every grid point the two scratch buffers hold the two tables: the first point stores them, later points leave them. -/
theorem scratch_eq (c : Dev nD) : ∀ (n : ℕ) (h : n < cfg0.N), (outsAt0 m c n h).2 = (tabM m c, tabW m c)
  | 0, h => by
    rw [outsAt0_A m c ⟨0, h⟩ rfl]
    dsimp only
    rw [scratchM_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩),
      scratchW_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩),
      iblk5_eq, iblk6_eq, iblk2_eq, iblk3_eq]
    rfl
  | n + 1, h => by
    have hN : cfg0.N = 32 := N_0
    have hB : ¬(⟨n + 1, h⟩ : Fin cfg0.N).val % 32 = 0 := by dsimp only; omega
    have ih := scratch_eq c n (Nat.lt_of_succ_lt h)
    rw [outsAt0_B m c ⟨n + 1, h⟩ hB]
    exact Prod.ext (by show (outsAt0 m c n _).2.1 = _; rw [ih]) (by show (outsAt0 m c n _).2.2 = _; rw [ih])

/-- Every grid point leaves, in the output's staging buffer, the output block of its eight batch rows of x. -/
theorem out_eq (c : Dev nD) (t : Fin cfg0.N) :
    (outsAt0 m c t.val t.isLt).1 = outBlk (iblk m c 0 t) (V m c main_arg1) (V m c main_arg4) (tabM m c) (tabW m c) := by
  by_cases h0 : t.val % 32 = 0
  · rw [outsAt0_A m c t h0]
    dsimp only
    rw [out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
      iblk1_eq, iblk4_eq, iblk5_eq, iblk6_eq, iblk2_eq, iblk3_eq]
    rfl
  · rw [outsAt0_B m c t h0]
    dsimp only
    rw [out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).2.1 (outsAt0 m c (t.val - 1) (Nat.lt_of_le_of_lt (Nat.sub_le _ _) t.isLt)).2.2,
      scratch_eq m c (t.val - 1) (Nat.lt_of_le_of_lt (Nat.sub_le _ _) t.isLt), iblk1_eq, iblk4_eq]

end Cert.KernelIdeal.Body

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«106361_g27376121544985_cont_9to1_1554_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileForms.lean ====
/-
  A tile body's layout forms, read at an entry; every extent is generic.

  A body that works on an [a, b] tile meets these again and again: one row of an [m, b] block cut out as [1, b] and
  repeated down the tile's rows; a [1, b] row repeated the same way; a [b] vector recast to the row [1, b] first; a
  [1, a, b] slab viewed as the matrix [a, b], and the matrix stored back as a slab; a band of columns of a wide matrix
  loaded through its rectangle; an [a, b] array given a unit middle axis. Each lemma reads one form at an entry as the
  operand at the evident index.
-/
import Idealize.ShloMosaic.PureOps.Ideal.Laws
import Idealize.ShloMosaic.Lib.ValueIdx
import Idealize.ShloMosaic.Lib.ValueLayout
import Idealize.ShloMosaic.Lib.Pipeline.Value

namespace TileForms

open Idealize.ShloMosaic Idealize.ShloMosaic.ValueIdx

variable {a b m : ℕ} {α : Type}

/-- Row `k` of an [m, b] block, cut out at the literal offset `o = k` and repeated down an [a, b] tile, reads at
    (p, c) the block at (k, c). -/
theorem blockRow_apply (B : (⟨2, ![m, b]⟩ : Shape).Idx → α) (o : ℕ) (k : Fin m) (hk : k.val = o)
    (hs : (⟨2, ![m, b]⟩ : Shape).Slices ![o, 0] ⟨2, ![1, b]⟩)
    (hb : (⟨2, ![1, b]⟩ : Shape).Broadcasts ⟨2, ![a, b]⟩) (p : Fin a) (c : Fin b) :
    broadcastTo ⟨2, ![a, b]⟩ (extractStridedSlice ⟨2, ![1, b]⟩ ![o, 0] B hs) hb (ix2 p c) = B (ix2 k c) :=
  (broadcastTo_1b_ab_apply _ hb p c).trans (slice2_axis0_apply o B hs (0 : Fin 1) c k (by simpa using hk))

/-- A [b] vector recast to the row [1, b] reads, at (0, c), the vector at c. -/
theorem rowCast_apply (x : (⟨1, ![b]⟩ : Shape).Idx → α) (h1 : (⟨1, ![b]⟩ : Shape).ShapeCasts ⟨2, ![1, b]⟩) (c : Fin b) :
    shapeCast ⟨2, ![1, b]⟩ x h1 (ix2 (0 : Fin 1) c) = x (ix1 c) :=
  shapeCast_a_1a_apply x h1 0 c

/-- A [b] vector recast to the row [1, b] and repeated down an [a, b] tile reads, at (p, c), the vector at c. -/
theorem biasRow_apply (x : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x h1) hb (ix2 p c) = x (ix1 c) :=
  (broadcastTo_1b_ab_apply _ hb p c).trans (rowCast_apply x h1 c)

/-- A [1, a, b] slab viewed as the matrix [a, b] reads, at (p, c), the slab at (0, p, c). -/
theorem slabAsMatrix_apply (x : (⟨3, ![1, a, b]⟩ : Shape).Idx → α) (h : (⟨3, ![1, a, b]⟩ : Shape).ShapeCasts ⟨2, ![a, b]⟩)
    (p : Fin a) (c : Fin b) : shapeCast ⟨2, ![a, b]⟩ x h (ix2 p c) = x (ix3 (0 : Fin 1) p c) := by
  refine (shapeCast_dropUnit_apply ![a, b] x h (ix2 p c)).trans (congrArg x ?_)
  funext d
  match d with
  | ⟨0, _⟩ => rfl
  | ⟨1, _⟩ => rfl
  | ⟨2, _⟩ => rfl

/-- A matrix [a, b] stored as the slab [1, a, b] reads, at (0, p, c), the matrix at (p, c). -/
theorem matrixAsSlab_apply (x : (⟨2, ![a, b]⟩ : Shape).Idx → α) (h : (⟨2, ![a, b]⟩ : Shape).ShapeCasts ⟨3, ![1, a, b]⟩)
    (u : Fin 1) (p : Fin a) (c : Fin b) : shapeCast ⟨3, ![1, a, b]⟩ x h (ix3 u p c) = x (ix2 p c) := by
  refine (shapeCast_addUnit_apply ![a, b] x h (ix3 u p c)).trans (congrArg x ?_)
  funext d
  match d with
  | ⟨0, _⟩ => rfl
  | ⟨1, _⟩ => rfl

/-- A band of `n` columns of an [r, w] matrix starting at column `o`, loaded through its rectangle, reads at (u, d) the
    matrix at (u, o + d). -/
theorem ld_band {Val : EltTy → Type} {e : EltTy} {r w n : ℕ} (x : (⟨2, ![r, w]⟩ : Shape).Idx → Val e) (o : ℕ)
    (inb : ∀ ax, (![0, o] : Fin 2 → ℕ) ax + (⟨2, ![r, n]⟩ : Shape).size ax ≤ (⟨2, ![r, w]⟩ : Shape).size ax)
    (u : Fin r) (d : Fin n) (k : Fin w) (hk : k.val = o + d.val) :
    View.ld (Val := Val) x (Rect.unit (s := ⟨2, ![r, w]⟩) ![0, o] (⟨2, ![r, n]⟩ : Shape).size inb) (ix2 u d) = x (ix2 u k) := by
  show x ((Rect.unit (s := ⟨2, ![r, w]⟩) ![0, o] (⟨2, ![r, n]⟩ : Shape).size inb).emb (ix2 u d)) = _
  refine congrArg x (funext fun ax => Fin.ext ?_)
  match ax with
  | ⟨0, _⟩ => show 0 + 1 * u.val = u.val; omega
  | ⟨1, _⟩ => show o + 1 * d.val = k.val; omega

/-- An [a, b] array given a unit middle axis reads, at (s, u, e), the array at (s, e). -/
theorem midUnit_apply {a b : ℕ} {α : Type} (x : (⟨2, ![a, b]⟩ : Shape).Idx → α)
    (h : (⟨2, ![a, b]⟩ : Shape).ShapeCasts ⟨3, ![a, 1, b]⟩) (s : Fin a) (u : Fin 1) (e : Fin b) :
    shapeCast ⟨3, ![a, 1, b]⟩ x h (ix3 s u e) = x (ix2 s e) :=
  shapeCast_apply x h _ _ (by
    have hu : u.val = 0 := by omega
    rw [Shape.rowMajor_val_two, Shape.rowMajor_val_three]
    show s.val * b + e.val = (s.val * 1 + u.val) * b + e.val
    rw [hu, Nat.mul_one, Nat.add_zero])

/-- The f32 word of +0 as a scalar constant denotes zero. -/
theorem scalar_zero : Scalar.ofBits (F := Ideal) .f32 0x00000000#32 = (0 : EReal) := Ideal.ofBits_zero_f32

end TileForms
-- ==== Proof.KEntry.lean ====
/-
  The three terms of the kernel's body read at an entry, on the extended reals.

  M[k, q] is the eight-step accumulation ((0 + S₀) + S₁) + … + S₇ with S_j = (k = A'[j, q] ? mask'[j, q] : 0) (A', mask' the
  transposed adjacency and mask); W[o, c] = (g[o] · v[o, c]) · rsqrt(Σ_d v[o, d]²); the [512, 1024] × [1024, 128] product has,
  at row 64·b + c and column q, Σ_k (x[b, c, k] · w[c, k]) · M[k, q]; and the output block at (b, o, q) is
  Σ_c W[o, c] · (that product at (64·b + c, q)) + bias[0, o, q].
-/
import proofs.«106361_g27376121544985_cont_9to1_1554_2_alg».proof.Proof.KPieces
import proofs.«106361_g27376121544985_cont_9to1_1554_2_alg».proof.Proof.LibDotRecord
import proofs.«106361_g27376121544985_cont_9to1_1554_2_alg».proof.Proof.LibRowOps
import proofs.«106361_g27376121544985_cont_9to1_1554_2_alg».proof.Proof.LibTileForms
import Idealize.ShloMosaic.PureOps.Ideal.Laws
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Idealize.ShloMosaic.ValueIdx Idealize.ShloMosaic.Tactic

/-- Row `k` of an [m, b] block, loaded through the rectangle of extents [1, b] at the literal offsets [o, 0], o = k, reads
    at (0, c) the block at (k, c). -/
theorem ld_row {Val : EltTy → Type} {e : EltTy} {m b : ℕ} (x : (⟨2, ![m, b]⟩ : Shape).Idx → Val e) (o : ℕ) (k : Fin m) (hk : k.val = o)
    (inb : ∀ ax, (![o, 0] : Fin 2 → ℕ) ax + (⟨2, ![1, b]⟩ : Shape).size ax ≤ (⟨2, ![m, b]⟩ : Shape).size ax) (c : Fin b) :
    View.ld (Val := Val) x (Rect.unit (s := ⟨2, ![m, b]⟩) ![o, 0] (⟨2, ![1, b]⟩ : Shape).size inb) (ix2 (0 : Fin 1) c) = x (ix2 k c) := by
  show x ((Rect.unit (s := ⟨2, ![m, b]⟩) ![o, 0] (⟨2, ![1, b]⟩ : Shape).size inb).idx (ix2 (0 : Fin 1) c)) = _
  refine congrArg x (funext fun ax => Fin.ext ?_)
  match ax with
  | ⟨0, _⟩ => show o + 1 * 0 = k.val; omega
  | ⟨1, _⟩ => show 0 + 1 * c.val = c.val; omega

/-- One adjacency column's contribution to M[k, q]: the mask value μ where the adjacency word a names node k, else zero. -/
def hot (k : Fin 1024) (a : BitVec 32) (μ : EReal) : EReal :=
  Scalar.select (IntOp.cmpi .eq (BitVec.ofNat 32 k.val) a) μ (Scalar.ofBits (F := Ideal) .f32 0x00000000#32)

theorem cmpi_apply {s : Shape} {w : ℕ} (p : CmpIPredicate) (x y : IVec s w) (i : s.Idx) : cmpi p x y i = IntOp.cmpi p (x i) (y i) := rfl

/-- The pooling matrix at (k, q): the accumulation from zero of the eight adjacency columns' contributions. -/
theorem poolM_apply (x5 : Vec Ideal S8x128 .f32) (x6 : Vec Ideal S8x128 .i32) (k : Fin 1024) (q : Fin 128) :
    poolM (F := Ideal) x5 x6 (ix2 k q) =
      ((((((((Scalar.ofBits (F := Ideal) .f32 0x00000000#32 + hot k (x6 (ix2 (0 : Fin 8) q)) (x5 (ix2 (0 : Fin 8) q))) + hot k (x6 (ix2 (1 : Fin 8) q)) (x5 (ix2 (1 : Fin 8) q))) + hot k (x6 (ix2 (2 : Fin 8) q)) (x5 (ix2 (2 : Fin 8) q))) + hot k (x6 (ix2 (3 : Fin 8) q)) (x5 (ix2 (3 : Fin 8) q)))
        + hot k (x6 (ix2 (4 : Fin 8) q)) (x5 (ix2 (4 : Fin 8) q))) + hot k (x6 (ix2 (5 : Fin 8) q)) (x5 (ix2 (5 : Fin 8) q))) + hot k (x6 (ix2 (6 : Fin 8) q)) (x5 (ix2 (6 : Fin 8) q))) + hot k (x6 (ix2 (7 : Fin 8) q)) (x5 (ix2 (7 : Fin 8) q))) := by
  unfold poolM k0_pay6 k0_pay4 k0_pay1 k0_pay2 k0_pay3 k0_pay5
  simp only [shapeCast_self, addf_apply, select_apply, cmpi_apply, broadcast_apply, DotRecord.broadcastTo_1b_ab_apply,
    iota_single_apply,
    ld_row x5 0 (0 : Fin 8) rfl, ld_row x5 1 (1 : Fin 8) rfl, ld_row x5 2 (2 : Fin 8) rfl, ld_row x5 3 (3 : Fin 8) rfl,
    ld_row x5 4 (4 : Fin 8) rfl, ld_row x5 5 (5 : Fin 8) rfl, ld_row x5 6 (6 : Fin 8) rfl, ld_row x5 7 (7 : Fin 8) rfl,
    ld_row x6 0 (0 : Fin 8) rfl, ld_row x6 1 (1 : Fin 8) rfl, ld_row x6 2 (2 : Fin 8) rfl, ld_row x6 3 (3 : Fin 8) rfl,
    ld_row x6 4 (4 : Fin 8) rfl, ld_row x6 5 (5 : Fin 8) rfl, ld_row x6 6 (6 : Fin 8) rfl, ld_row x6 7 (7 : Fin 8) rfl]
  have hi : iota .tc S1024x128 32 [0] iota_S1024x128_d0_w32 (ix2 k q) = BitVec.ofNat 32 k.val :=
    iota_single_apply .tc S1024x128 32 0 iota_S1024x128_d0_w32 (ix2 k q)
  rw [hi]
  rfl

theorem rsqrt_apply {s : Shape} {φ : FTy} (x : FVec Ideal s φ) (i : s.Idx) : rsqrt x i = Ideal.rsqrt (x i) := rfl

/-- The normalized weights at (o, c): (g[o] · v[o, c]) · rsqrt(Σ_d v[o, d]²). -/
theorem normW_apply (x2 : FVec Ideal S64x64 .f32) (x3 : FVec Ideal S64x1 .f32) (o c : Fin 64) :
    normW (F := Ideal) x2 x3 (ix2 o c)
      = (x3 (ix2 o (0 : Fin 1)) * x2 (ix2 o c)) * Ideal.rsqrt (∑ d : Fin 64, x2 (ix2 o d) * x2 (ix2 o d)) := by
  unfold normW k0_pay7
  rw [shapeCast_self]
  have e1 : ∀ (u : FVec Ideal S64x1 .f32), broadcastTo S64x64 u broadcasts_S64x1_S64x64 (ix2 o c) = u (ix2 o (0 : Fin 1)) :=
    fun u => Gcn.Lib.broadcastTo_a1_ab_apply u broadcasts_S64x1_S64x64 o c
  have e3 := (Gcn.Lib.shapeCast_a_a1_apply (multiReduction .add [1] S64 (mulf x2 x2) 0x00000000#32 reduces_S64x64_S64 (.inl rfl) rfl) shapeCasts_S64_S64x1 o 0).trans
    (Gcn.Lib.rowSum_apply (mulf x2 x2) reduces_S64x64_S64 (.inl rfl) rfl o)
  simp only [mulf_apply, e1, rsqrt_apply]
  rw [e3]
  simp only [mulf_apply]

/-- The one big product of a grid point, at row 64·b + c (as r) and column q: Σ_k (x[b, c, k] · w[c, k]) · M[k, q]. -/
theorem bigProduct_apply (x0 : Vec Ideal S8x64x1024 .f32) (x1 : Vec Ideal S64x1024 .f32) (M : Vec Ideal S1024x128 .f32)
    (b : Fin 8) (c : Fin 64) (r : Fin 512) (hr : r.val = 64 * b.val + c.val) (q : Fin 128) :
    k0_pay8 (F := Ideal) x0 x1 M (ix2 r q) = ∑ k : Fin 1024, (x0 (ix3 b c k) * x1 (ix2 c k)) * M (ix2 k q) := by
  unfold k0_pay8
  refine (DotRecord.matmul_zero_apply dot_S512x1024_S1024x128_S512x128_1_0_0_1_n_n rfl rfl rfl rfl rfl rfl _ M none r q).trans ?_
  refine Finset.sum_congr rfl fun k _ => congrArg (· * M (ix2 k q)) ?_
  refine (shapeCast_apply _ shapeCasts_S8x64x1024_S512x1024 (ix2 r k) (ix3 b c k) ?_).trans ?_
  · rw [Shape.rowMajor_val_two, Shape.rowMajor_val_three]
    show (b.val * 64 + c.val) * 1024 + k.val = r.val * 1024 + k.val
    rw [hr]; omega
  rw [mulf_apply]
  refine congrArg (x0 (ix3 b c k) * ·) ?_
  refine (broadcastTo_apply _ broadcasts_S1x64x1024_S8x64x1024 (ix3 b c k) (ix3 (0 : Fin 1) c k) fun ax => ?_).trans
    (TileForms.matrixAsSlab_apply x1 shapeCasts_S64x1024_S1x64x1024 0 c k)
  match ax with
  | ⟨0, _⟩ => rfl
  | ⟨1, _⟩ => rfl
  | ⟨2, _⟩ => rfl

/-- One [64, 128] slab: W times rows off … off+63 of the product, plus the bias, viewed as a [1, 64, 128] slab. -/
theorem slab_apply (pre : FVec Ideal S512x128 .f32) (W : FVec Ideal S64x64 .f32) (bias : FVec Ideal S64x128 .f32)
    (off : ℕ) (hs : S512x128.Slices ![off, 0] S64x128) (rows : Fin 64 → Fin 512) (hrows : ∀ c, (rows c).val = off + c.val)
    (u : Fin 1) (o : Fin 64) (q : Fin 128) :
    shapeCast S1x64x128 (addf (matmul dot_S64x64_S64x128_S64x128_1_0_0_1_n_n none W (extractStridedSlice S64x128 ![off, 0] pre hs)
        (constant S64x128 .f32 0x00000000#32)) bias) shapeCasts_S64x128_S1x64x128 (ix3 u o q)
      = (∑ c : Fin 64, W (ix2 o c) * pre (ix2 (rows c) q)) + bias (ix2 o q) := by
  refine (TileForms.matrixAsSlab_apply _ shapeCasts_S64x128_S1x64x128 u o q).trans ?_
  rw [addf_apply]
  refine congrArg (· + bias (ix2 o q)) ?_
  refine (DotRecord.matmul_zero_apply dot_S64x64_S64x128_S64x128_1_0_0_1_n_n rfl rfl rfl rfl rfl rfl W _ none o q).trans ?_
  refine Finset.sum_congr rfl fun c _ => congrArg (W (ix2 o c) * ·) ?_
  exact extractStridedSlice_apply ![off, 0] pre hs (ix2 c q) (ix2 (rows c) q) fun a => by
    match a with
    | ⟨0, _⟩ => exact hrows c
    | ⟨1, _⟩ => show q.val = 0 + q.val; omega

/-- The output block of a grid point at (b, o, q): Σ_c W[o, c] · (Σ_k (x[b, c, k] · w[c, k]) · M[k, q]) + bias[0, o, q]. -/
def blockFn (x0 : FVec Ideal S8x64x1024 .f32) (x1 : FVec Ideal S64x1024 .f32) (x4 : FVec Ideal S1x64x128 .f32)
    (M : FVec Ideal S1024x128 .f32) (W : FVec Ideal S64x64 .f32) (b : Fin 8) (o : Fin 64) (q : Fin 128) : EReal :=
  (∑ c : Fin 64, W (ix2 o c) * ∑ k : Fin 1024, (x0 (ix3 b c k) * x1 (ix2 c k)) * M (ix2 k q)) + x4 (ix3 (0 : Fin 1) o q)

/-- The eight slabs a grid point stores are the eight restrictions of that one function, and together they fill the block. -/
theorem outBlk_apply (x0 : FVec Ideal S8x64x1024 .f32) (x1 : FVec Ideal S64x1024 .f32) (x4 : FVec Ideal S1x64x128 .f32)
    (M : FVec Ideal S1024x128 .f32) (W : FVec Ideal S64x64 .f32) (b : Fin 8) (o : Fin 64) (q : Fin 128) :
    outBlk (F := Ideal) x0 x1 x4 M W (ix3 b o q) = blockFn x0 x1 x4 M W b o q := by
  unfold outBlk
  refine (View.canon_apply_of_pieces (fun y : S8x64x128.Idx => blockFn x0 x1 x4 M W (y 0) (y 1) (y 2)) _ ?_ (ix3 b o q)
    (View.cover_of_tiledL (s := S8x64x128) _ S1x64x128.size (by sl_kernel_rfl) (ix3 b o q))).trans rfl
  intro p hp x
  simp only [List.mem_cons, List.not_mem_nil, or_false] at hp
  rcases hp with rfl | rfl | rfl | rfl | rfl | rfl | rfl | rfl
  · -- slab 7: rows 448 … 511 of the product
    obtain ⟨u, o', q', rfl⟩ : ∃ (u : Fin 1) (o' : Fin 64) (q' : Fin 128), x = ix3 u o' q' := ⟨x 0, x 1, x 2, eq_ix3 x⟩
    obtain rfl : u = 0 := Subsingleton.elim _ _
    have hE : (Rect.unit (s := S8x64x128) ![7, 0, 0] S1x64x128.size inb_S8x64x128_S1x64x128_7_0_0).emb (ix3 (0 : Fin 1) o' q')
        = ix3 (7 : Fin 8) o' q' := funext fun ax => Fin.ext (by
      match ax with
      | ⟨0, _⟩ => show 7 + 1 * 0 = 7; rfl
      | ⟨1, _⟩ => show 0 + 1 * o'.val = o'.val; omega
      | ⟨2, _⟩ => show 0 + 1 * q'.val = q'.val; omega)
    dsimp only
    rw [hE]
    show _ = blockFn x0 x1 x4 M W (7 : Fin 8) o' q'
    unfold k0_pay18
    refine (slab_apply (k0_pay8 x0 x1 M) W (k0_pay9 x4) 448 slices_S512x128_o448_0_S64x128
      (fun c => ⟨448 + c.val, by have := c.isLt; omega⟩) (fun c => rfl) 0 o' q').trans ?_
    unfold blockFn
    refine congrArg₂ (· + ·) (Finset.sum_congr rfl fun c _ => congrArg (W (ix2 o' c) * ·)
      (bigProduct_apply x0 x1 M (7 : Fin 8) c _ (by show 448 + c.val = 64 * 7 + c.val; omega) q'))
      (TileForms.slabAsMatrix_apply x4 shapeCasts_S1x64x128_S64x128 o' q')
  · -- slab 6: rows 384 … 447 of the product
    obtain ⟨u, o', q', rfl⟩ : ∃ (u : Fin 1) (o' : Fin 64) (q' : Fin 128), x = ix3 u o' q' := ⟨x 0, x 1, x 2, eq_ix3 x⟩
    obtain rfl : u = 0 := Subsingleton.elim _ _
    have hE : (Rect.unit (s := S8x64x128) ![6, 0, 0] S1x64x128.size inb_S8x64x128_S1x64x128_6_0_0).emb (ix3 (0 : Fin 1) o' q')
        = ix3 (6 : Fin 8) o' q' := funext fun ax => Fin.ext (by
      match ax with
      | ⟨0, _⟩ => show 6 + 1 * 0 = 6; rfl
      | ⟨1, _⟩ => show 0 + 1 * o'.val = o'.val; omega
      | ⟨2, _⟩ => show 0 + 1 * q'.val = q'.val; omega)
    dsimp only
    rw [hE]
    show _ = blockFn x0 x1 x4 M W (6 : Fin 8) o' q'
    unfold k0_pay17
    refine (slab_apply (k0_pay8 x0 x1 M) W (k0_pay9 x4) 384 slices_S512x128_o384_0_S64x128
      (fun c => ⟨384 + c.val, by have := c.isLt; omega⟩) (fun c => rfl) 0 o' q').trans ?_
    unfold blockFn
    refine congrArg₂ (· + ·) (Finset.sum_congr rfl fun c _ => congrArg (W (ix2 o' c) * ·)
      (bigProduct_apply x0 x1 M (6 : Fin 8) c _ (by show 384 + c.val = 64 * 6 + c.val; omega) q'))
      (TileForms.slabAsMatrix_apply x4 shapeCasts_S1x64x128_S64x128 o' q')
  · -- slab 5: rows 320 … 383 of the product
    obtain ⟨u, o', q', rfl⟩ : ∃ (u : Fin 1) (o' : Fin 64) (q' : Fin 128), x = ix3 u o' q' := ⟨x 0, x 1, x 2, eq_ix3 x⟩
    obtain rfl : u = 0 := Subsingleton.elim _ _
    have hE : (Rect.unit (s := S8x64x128) ![5, 0, 0] S1x64x128.size inb_S8x64x128_S1x64x128_5_0_0).emb (ix3 (0 : Fin 1) o' q')
        = ix3 (5 : Fin 8) o' q' := funext fun ax => Fin.ext (by
      match ax with
      | ⟨0, _⟩ => show 5 + 1 * 0 = 5; rfl
      | ⟨1, _⟩ => show 0 + 1 * o'.val = o'.val; omega
      | ⟨2, _⟩ => show 0 + 1 * q'.val = q'.val; omega)
    dsimp only
    rw [hE]
    show _ = blockFn x0 x1 x4 M W (5 : Fin 8) o' q'
    unfold k0_pay16
    refine (slab_apply (k0_pay8 x0 x1 M) W (k0_pay9 x4) 320 slices_S512x128_o320_0_S64x128
      (fun c => ⟨320 + c.val, by have := c.isLt; omega⟩) (fun c => rfl) 0 o' q').trans ?_
    unfold blockFn
    refine congrArg₂ (· + ·) (Finset.sum_congr rfl fun c _ => congrArg (W (ix2 o' c) * ·)
      (bigProduct_apply x0 x1 M (5 : Fin 8) c _ (by show 320 + c.val = 64 * 5 + c.val; omega) q'))
      (TileForms.slabAsMatrix_apply x4 shapeCasts_S1x64x128_S64x128 o' q')
  · -- slab 4: rows 256 … 319 of the product
    obtain ⟨u, o', q', rfl⟩ : ∃ (u : Fin 1) (o' : Fin 64) (q' : Fin 128), x = ix3 u o' q' := ⟨x 0, x 1, x 2, eq_ix3 x⟩
    obtain rfl : u = 0 := Subsingleton.elim _ _
    have hE : (Rect.unit (s := S8x64x128) ![4, 0, 0] S1x64x128.size inb_S8x64x128_S1x64x128_4_0_0).emb (ix3 (0 : Fin 1) o' q')
        = ix3 (4 : Fin 8) o' q' := funext fun ax => Fin.ext (by
      match ax with
      | ⟨0, _⟩ => show 4 + 1 * 0 = 4; rfl
      | ⟨1, _⟩ => show 0 + 1 * o'.val = o'.val; omega
      | ⟨2, _⟩ => show 0 + 1 * q'.val = q'.val; omega)
    dsimp only
    rw [hE]
    show _ = blockFn x0 x1 x4 M W (4 : Fin 8) o' q'
    unfold k0_pay15
    refine (slab_apply (k0_pay8 x0 x1 M) W (k0_pay9 x4) 256 slices_S512x128_o256_0_S64x128
      (fun c => ⟨256 + c.val, by have := c.isLt; omega⟩) (fun c => rfl) 0 o' q').trans ?_
    unfold blockFn
    refine congrArg₂ (· + ·) (Finset.sum_congr rfl fun c _ => congrArg (W (ix2 o' c) * ·)
      (bigProduct_apply x0 x1 M (4 : Fin 8) c _ (by show 256 + c.val = 64 * 4 + c.val; omega) q'))
      (TileForms.slabAsMatrix_apply x4 shapeCasts_S1x64x128_S64x128 o' q')
  · -- slab 3: rows 192 … 255 of the product
    obtain ⟨u, o', q', rfl⟩ : ∃ (u : Fin 1) (o' : Fin 64) (q' : Fin 128), x = ix3 u o' q' := ⟨x 0, x 1, x 2, eq_ix3 x⟩
    obtain rfl : u = 0 := Subsingleton.elim _ _
    have hE : (Rect.unit (s := S8x64x128) ![3, 0, 0] S1x64x128.size inb_S8x64x128_S1x64x128_3_0_0).emb (ix3 (0 : Fin 1) o' q')
        = ix3 (3 : Fin 8) o' q' := funext fun ax => Fin.ext (by
      match ax with
      | ⟨0, _⟩ => show 3 + 1 * 0 = 3; rfl
      | ⟨1, _⟩ => show 0 + 1 * o'.val = o'.val; omega
      | ⟨2, _⟩ => show 0 + 1 * q'.val = q'.val; omega)
    dsimp only
    rw [hE]
    show _ = blockFn x0 x1 x4 M W (3 : Fin 8) o' q'
    unfold k0_pay14
    refine (slab_apply (k0_pay8 x0 x1 M) W (k0_pay9 x4) 192 slices_S512x128_o192_0_S64x128
      (fun c => ⟨192 + c.val, by have := c.isLt; omega⟩) (fun c => rfl) 0 o' q').trans ?_
    unfold blockFn
    refine congrArg₂ (· + ·) (Finset.sum_congr rfl fun c _ => congrArg (W (ix2 o' c) * ·)
      (bigProduct_apply x0 x1 M (3 : Fin 8) c _ (by show 192 + c.val = 64 * 3 + c.val; omega) q'))
      (TileForms.slabAsMatrix_apply x4 shapeCasts_S1x64x128_S64x128 o' q')
  · -- slab 2: rows 128 … 191 of the product
    obtain ⟨u, o', q', rfl⟩ : ∃ (u : Fin 1) (o' : Fin 64) (q' : Fin 128), x = ix3 u o' q' := ⟨x 0, x 1, x 2, eq_ix3 x⟩
    obtain rfl : u = 0 := Subsingleton.elim _ _
    have hE : (Rect.unit (s := S8x64x128) ![2, 0, 0] S1x64x128.size inb_S8x64x128_S1x64x128_2_0_0).emb (ix3 (0 : Fin 1) o' q')
        = ix3 (2 : Fin 8) o' q' := funext fun ax => Fin.ext (by
      match ax with
      | ⟨0, _⟩ => show 2 + 1 * 0 = 2; rfl
      | ⟨1, _⟩ => show 0 + 1 * o'.val = o'.val; omega
      | ⟨2, _⟩ => show 0 + 1 * q'.val = q'.val; omega)
    dsimp only
    rw [hE]
    show _ = blockFn x0 x1 x4 M W (2 : Fin 8) o' q'
    unfold k0_pay13 k0_pay12
    refine (slab_apply (k0_pay8 x0 x1 M) W (k0_pay9 x4) 128 slices_S512x128_o128_0_S64x128
      (fun c => ⟨128 + c.val, by have := c.isLt; omega⟩) (fun c => rfl) 0 o' q').trans ?_
    unfold blockFn
    refine congrArg₂ (· + ·) (Finset.sum_congr rfl fun c _ => congrArg (W (ix2 o' c) * ·)
      (bigProduct_apply x0 x1 M (2 : Fin 8) c _ (by show 128 + c.val = 64 * 2 + c.val; omega) q'))
      (TileForms.slabAsMatrix_apply x4 shapeCasts_S1x64x128_S64x128 o' q')
  · -- slab 1: rows 64 … 127 of the product
    obtain ⟨u, o', q', rfl⟩ : ∃ (u : Fin 1) (o' : Fin 64) (q' : Fin 128), x = ix3 u o' q' := ⟨x 0, x 1, x 2, eq_ix3 x⟩
    obtain rfl : u = 0 := Subsingleton.elim _ _
    have hE : (Rect.unit (s := S8x64x128) ![1, 0, 0] S1x64x128.size inb_S8x64x128_S1x64x128_1_0_0).emb (ix3 (0 : Fin 1) o' q')
        = ix3 (1 : Fin 8) o' q' := funext fun ax => Fin.ext (by
      match ax with
      | ⟨0, _⟩ => show 1 + 1 * 0 = 1; rfl
      | ⟨1, _⟩ => show 0 + 1 * o'.val = o'.val; omega
      | ⟨2, _⟩ => show 0 + 1 * q'.val = q'.val; omega)
    dsimp only
    rw [hE]
    show _ = blockFn x0 x1 x4 M W (1 : Fin 8) o' q'
    unfold k0_pay11
    refine (slab_apply (k0_pay8 x0 x1 M) W (k0_pay9 x4) 64 slices_S512x128_o64_0_S64x128
      (fun c => ⟨64 + c.val, by have := c.isLt; omega⟩) (fun c => rfl) 0 o' q').trans ?_
    unfold blockFn
    refine congrArg₂ (· + ·) (Finset.sum_congr rfl fun c _ => congrArg (W (ix2 o' c) * ·)
      (bigProduct_apply x0 x1 M (1 : Fin 8) c _ (by show 64 + c.val = 64 * 1 + c.val; omega) q'))
      (TileForms.slabAsMatrix_apply x4 shapeCasts_S1x64x128_S64x128 o' q')
  · -- slab 0: rows 0 … 63 of the product
    obtain ⟨u, o', q', rfl⟩ : ∃ (u : Fin 1) (o' : Fin 64) (q' : Fin 128), x = ix3 u o' q' := ⟨x 0, x 1, x 2, eq_ix3 x⟩
    obtain rfl : u = 0 := Subsingleton.elim _ _
    have hE : (Rect.unit (s := S8x64x128) ![0, 0, 0] S1x64x128.size inb_S8x64x128_S1x64x128_0_0_0).emb (ix3 (0 : Fin 1) o' q')
        = ix3 (0 : Fin 8) o' q' := funext fun ax => Fin.ext (by
      match ax with
      | ⟨0, _⟩ => show 0 + 1 * 0 = 0; rfl
      | ⟨1, _⟩ => show 0 + 1 * o'.val = o'.val; omega
      | ⟨2, _⟩ => show 0 + 1 * q'.val = q'.val; omega)
    dsimp only
    rw [hE]
    show _ = blockFn x0 x1 x4 M W (0 : Fin 8) o' q'
    unfold k0_pay10
    refine (slab_apply (k0_pay8 x0 x1 M) W (k0_pay9 x4) 0 slices_S512x128_o0_0_S64x128
      (fun c => ⟨0 + c.val, by have := c.isLt; omega⟩) (fun c => rfl) 0 o' q').trans ?_
    unfold blockFn
    refine congrArg₂ (· + ·) (Finset.sum_congr rfl fun c _ => congrArg (W (ix2 o' c) * ·)
      (bigProduct_apply x0 x1 M (0 : Fin 8) c _ (by show 0 + c.val = 64 * 0 + c.val; omega) q'))
      (TileForms.slabAsMatrix_apply x4 shapeCasts_S1x64x128_S64x128 o' q')

end Cert.KernelIdeal.Body

end
-- ==== Proof.KArray.lean ====
/-
  From blocks to the array: the idealized kernel's result array as one function of its arguments.

  Grid point t takes batch rows 8t … 8t+7 of x (its block index is (t, 0, 0)) and writes rows 8t … 8t+7 of the result; the
  thirty-two blocks are disjoint and fill the [256, 64, 128] array, so the array ends at

      y[n, o, q] = Σ_c W[o, c] · (Σ_k (x[n, c, k] · w[c, k]) · M[k, q]) + bias[0, o, q],
      W[o, c] = (g[o] · v[o, c]) · rsqrt(Σ_d v[o, d]²),   M[k, q] = ((0 + S₀) + … ) + S₇,  S_j = (k = A[q, j] ? mask[q, j] : 0).

  The mask and the adjacency reach the kernel transposed by two host operations before the region (a reshape dropping the
  mask's unit axis, then the transposes); this module reads those back to the arguments' own entries.
-/
import proofs.«106361_g27376121544985_cont_9to1_1554_2_alg».proof.Proof.KInvariant
import proofs.«106361_g27376121544985_cont_9to1_1554_2_alg».proof.Proof.KEntry
import proofs.«106361_g27376121544985_cont_9to1_1554_2_alg».proof.Proof.Gen.KernelIdeal.Value
import Idealize.ShloMosaic.Lib.Pipeline.Value
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Idealize.ShloMosaic.ValueIdx

/-- The pooling matrix at (k, q), from the arguments' own entries. -/
def pool (msk : FVec Ideal S128x8x1 .f32) (A : IVec S128x8 32) (k : Fin 1024) (q : Fin 128) : EReal :=
  ((((((((Scalar.ofBits (F := Ideal) .f32 0x00000000#32 + hot k (A (ix2 q (0 : Fin 8))) (msk (ix3 q (0 : Fin 8) (0 : Fin 1)))) + hot k (A (ix2 q (1 : Fin 8))) (msk (ix3 q (1 : Fin 8) (0 : Fin 1)))) + hot k (A (ix2 q (2 : Fin 8))) (msk (ix3 q (2 : Fin 8) (0 : Fin 1)))) + hot k (A (ix2 q (3 : Fin 8))) (msk (ix3 q (3 : Fin 8) (0 : Fin 1))))
    + hot k (A (ix2 q (4 : Fin 8))) (msk (ix3 q (4 : Fin 8) (0 : Fin 1)))) + hot k (A (ix2 q (5 : Fin 8))) (msk (ix3 q (5 : Fin 8) (0 : Fin 1)))) + hot k (A (ix2 q (6 : Fin 8))) (msk (ix3 q (6 : Fin 8) (0 : Fin 1)))) + hot k (A (ix2 q (7 : Fin 8))) (msk (ix3 q (7 : Fin 8) (0 : Fin 1))))

/-- The kernel's result at (n, o, q), from the arguments' own entries. -/
def kerEntry (x : FVec Ideal S256x64x1024 .f32) (w : FVec Ideal S64x1024 .f32) (v : FVec Ideal S64x64 .f32) (g : FVec Ideal S64x1 .f32)
    (bias : FVec Ideal S1x64x128 .f32) (msk : FVec Ideal S128x8x1 .f32) (A : IVec S128x8 32) (n : Fin 256) (o : Fin 64) (q : Fin 128) : EReal :=
  (∑ c : Fin 64, ((g (ix2 o (0 : Fin 1)) * v (ix2 o c)) * Ideal.rsqrt (∑ d : Fin 64, v (ix2 o d) * v (ix2 o d)))
      * ∑ k : Fin 1024, (x (ix3 n c k) * w (ix2 c k)) * pool msk A k q) + bias (ix3 (0 : Fin 1) o q)

/-- The kernel's result array as one function of the argument arrays. -/
def kerY (x : FVec Ideal S256x64x1024 .f32) (w : FVec Ideal S64x1024 .f32) (v : FVec Ideal S64x64 .f32) (g : FVec Ideal S64x1 .f32)
    (bias : FVec Ideal S1x64x128 .f32) (msk : FVec Ideal S128x8x1 .f32) (A : IVec S128x8 32) : S256x64x128.Idx → EReal :=
  fun y => kerEntry x w v g bias msk A (y 0) (y 1) (y 2)

variable (m : (ℓ : Loc nD τ sig) → Buf (Elt Ideal) ℓ) (ρ : Dev nD → PrngReg)

/-- The transposed mask the region finds, at (j, q), is the mask at (q, j, 0). -/
theorem maskT_apply (c : Dev nD) (j : Fin 8) (q : Fin 128) :
    (V m c main_v1 : S8x128.Idx → EReal) (ix2 j q) = m ((c : Thread nD τ).loc main_arg5) (ix3 q j (0 : Fin 1)) := by
  have e : (V m c main_v1 : S8x128.Idx → EReal)
      = transpose S8x128 [1, 0] (shapeCast S128x8 (m ((c : Thread nD τ).loc main_arg5)) shapeCasts_S128x8x1_S128x8) transposes_S128x8_S8x128_1_0 := by
    dsimp only [Gen.V, Gen.hostOps0]; after_results; rfl
  rw [e]
  refine (transpose_ix2_apply _ transposes_S128x8_S8x128_1_0 j q).trans ?_
  exact shapeCast_apply _ shapeCasts_S128x8x1_S128x8 (ix2 q j) (ix3 q j (0 : Fin 1)) (by
    rw [Shape.rowMajor_val_two, Shape.rowMajor_val_three]
    show (q.val * 8 + j.val) * 1 + 0 = q.val * 8 + j.val
    omega)

/-- The transposed adjacency the region finds, at (j, q), is the adjacency at (q, j). -/
theorem adjT_apply (c : Dev nD) (j : Fin 8) (q : Fin 128) :
    (V m c main_v2 : S8x128.Idx → BitVec 32) (ix2 j q) = m ((c : Thread nD τ).loc main_arg6) (ix2 q j) := by
  have e : (V m c main_v2 : S8x128.Idx → BitVec 32)
      = transpose S8x128 [1, 0] (m ((c : Thread nD τ).loc main_arg6)) transposes_S128x8_S8x128_1_0 := by
    dsimp only [Gen.V, Gen.hostOps0]; after_results
  rw [e]
  exact transpose_ix2_apply _ transposes_S128x8_S8x128_1_0 j q

/-- The run's pooling matrix, at (k, q), from the arguments' own entries. -/
theorem tabM_apply (c : Dev nD) (k : Fin 1024) (q : Fin 128) :
    tabM m c (ix2 k q) = pool (m ((c : Thread nD τ).loc main_arg5)) (m ((c : Thread nD τ).loc main_arg6)) k q := by
  unfold tabM pool
  rw [poolM_apply]
  simp only [maskT_apply m c, adjT_apply m c]

/-- Batch row b of grid point t's block of x is row 8t + b of x. -/
theorem xblk_apply (c : Dev nD) (t : Fin cfg0.N) (b : Fin 8) (c' : Fin 64) (k : Fin 1024) (n : Fin 256) (hn : n.val = 8 * t.val + b.val) :
    (iblk m c 0 t : Vec Ideal S8x64x1024 .f32) (ix3 b c' k) = m ((c : Thread nD τ).loc main_arg0) (ix3 n c' k) := by
  have hi : ∀ t : Fin cfg0.N, win0_0.index t 0 = t.val ∧ win0_0.index t 1 = 0 ∧ win0_0.index t 2 = 0 :=
    (by decide +kernel : ∀ t : Fin grid0.N, _)
  rw [← V_main_arg0 m c]
  unfold iblk
  rw [View.read_apply]
  show V m c main_arg0 _ = V m c main_arg0 (ix3 n c' k)
  congr 1
  funext a
  apply Fin.ext
  match a with
  | ⟨0, _⟩ => show win0_0.index t 0 * 8 + 1 * b.val = n.val; rw [(hi t).1, hn]; omega
  | ⟨1, _⟩ => show win0_0.index t 1 * 64 + 1 * c'.val = c'.val; rw [(hi t).2.1]; omega
  | ⟨2, _⟩ => show win0_0.index t 2 * 1024 + 1 * k.val = k.val; rw [(hi t).2.2]; omega

/-- The result array's function of the launch memory on core c. -/
abbrev resultOf (c : Dev nD) : S256x64x128.Idx → EReal :=
  kerY (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- What grid point t writes back is block t of that one function. -/
theorem flushed_eq (c : Dev nD) (t : Fin cfg0.N) :
    (dats m 0 c).flushed 7 t = ((cfg0.win 7).blk t).view.read (Elt Ideal) (resultOf m c) := by
  have hi : ∀ t : Fin cfg0.N, win0_7.index t 0 = t.val ∧ win0_7.index t 1 = 0 ∧ win0_7.index t 2 = 0 :=
    (by decide +kernel : ∀ t : Fin grid0.N, _)
  have hN : cfg0.N = 32 := N_0
  rw [Cert.KernelIdeal.Value.flushed7, out_eq]
  funext j
  obtain ⟨b, o, q, rfl⟩ : ∃ (b : Fin 8) (o : Fin 64) (q : Fin 128), j = ix3 b o q := ⟨j 0, j 1, j 2, eq_ix3 j⟩
  have ht := t.isLt
  have hE : ((cfg0.win 7).blk t).view.emb (ix3 b o q) = ix3 (⟨8 * t.val + b.val, by have := b.isLt; omega⟩ : Fin 256) o q := by
    funext a
    apply Fin.ext
    match a with
    | ⟨0, _⟩ => show win0_7.index t 0 * 8 + 1 * b.val = 8 * t.val + b.val; rw [(hi t).1]; omega
    | ⟨1, _⟩ => show win0_7.index t 1 * 64 + 1 * o.val = o.val; rw [(hi t).2.1]; omega
    | ⟨2, _⟩ => show win0_7.index t 2 * 128 + 1 * q.val = q.val; rw [(hi t).2.2]; omega
  show outBlk (iblk m c 0 t) (V m c main_arg1) (V m c main_arg4) (tabM m c) (tabW m c) (ix3 b o q) = resultOf m c (((cfg0.win 7).blk t).view.emb (ix3 b o q))
  rw [hE, outBlk_apply]
  show blockFn _ _ _ _ _ b o q = kerEntry _ _ _ _ _ _ _ (⟨8 * t.val + b.val, _⟩ : Fin 256) o q
  unfold blockFn kerEntry
  rw [V_main_arg1 m c, V_main_arg4 m c]
  refine congrArg (· + _) (Finset.sum_congr rfl fun c' _ => ?_)
  refine congrArg₂ (· * ·) ?_ (Finset.sum_congr rfl fun k _ => ?_)
  · unfold tabW
    rw [normW_apply, V_main_arg2 m c, V_main_arg3 m c]
  · rw [xblk_apply m c t b c' k ⟨8 * t.val + b.val, by have := b.isLt; omega⟩ rfl, tabM_apply]

/-- An index of the array is in point t's block iff each coordinate is in the block's range on its axis. -/
theorem mem_blk (t : Fin cfg0.N) (i : S256x64x128.Idx) :
    i ∈ ((cfg0.win 7).blk t).view.set ↔ ∀ a : Fin 3, win0_7.index t a * S8x64x128.size a ≤ (i a).val ∧ (i a).val < win0_7.index t a * S8x64x128.size a + S8x64x128.size a := by
  show i ∈ ((View.whole main_v3).slice (win0_7.rect t)).set ↔ _
  rw [View.set_slice_whole, Rect.mem_set_unit]
  exact Iff.rfl

/-- Every index of the array lies in the block of the point that takes its batch row: point n / 8. -/
theorem covered (i : S256x64x128.Idx) : ∃ t : Fin cfg0.N, (cfg0.win 7).flush t = true ∧ i ∈ ((cfg0.win 7).blk t).view.set := by
  have hi : ∀ t : Fin cfg0.N, win0_7.index t 0 = t.val ∧ win0_7.index t 1 = 0 ∧ win0_7.index t 2 = 0 :=
    (by decide +kernel : ∀ t : Fin grid0.N, _)
  have hN : cfg0.N = 32 := N_0
  have h0 : (i 0).val < 256 := (i 0).isLt
  have h1 : (i 1).val < 64 := (i 1).isLt
  have h2 : (i 2).val < 128 := (i 2).isLt
  refine ⟨⟨(i 0).val / 8, by omega⟩, flush0_7 _, ?_⟩
  rw [mem_blk]
  intro a
  match a with
  | ⟨0, _⟩ => show win0_7.index _ 0 * 8 ≤ (i 0).val ∧ (i 0).val < win0_7.index _ 0 * 8 + 8; rw [(hi _).1]; dsimp only; omega
  | ⟨1, _⟩ => show win0_7.index _ 1 * 64 ≤ (i 1).val ∧ (i 1).val < win0_7.index _ 1 * 64 + 64; rw [(hi _).2.1]; omega
  | ⟨2, _⟩ => show win0_7.index _ 2 * 128 ≤ (i 2).val ∧ (i 2).val < win0_7.index _ 2 * 128 + 128; rw [(hi _).2.2]; omega

/-- The result array after the run is that one function of the arguments. -/
theorem final (c : Dev nD) : (dats m 0 c).arrAt 7 cfg0.N = resultOf m c :=
  (dats m 0 c).arrAt_eq_of_cover 7 (resultOf m c) (fun t _ => flushed_eq m c t) covered

/-- The idealized kernel's run, read: the result array at its function of the arguments, the arguments unchanged. -/
theorem run : θ_run defs (onTc (τ := τ) (main (F := Ideal))) ⟨m, fun _ => 0, ρ⟩ fun r => ∀ c : Dev nD,
      r.2.mem ((c : Thread nD τ).loc main_v3) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Body

end
-- ==== Proof.RefRun.lean ====
/- The idealized reference's run, read back: @main as the list of its forty-eight host operations (the two
   outlined functions' bodies at their call sites), and what the result buffer holds at the end as one pure
   term of the seven arguments' launch contents. -/
import proofs.«106361_g27376121544985_cont_9to1_1554_2_alg».proof.Proof.Gen.ReferenceIdeal
import Idealize.ShloMosaic.Lib.StableHlo.Run
import Idealize.ShloMosaic.PureOps.Ideal
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The result as a pure term -/

/-- The elementwise product x[n,c,k]·w[c,k], the weight broadcast over the batch. -/
def xw (x : FVec Ideal S256x64x1024 .f32) (w : FVec Ideal S64x1024 .f32) : FVec Ideal S256x64x1024 .f32 :=
  mulf x (broadcastInDim S256x64x1024 ![0, 1, 2] bcast_S1x64x1024_S256x64x1024_0_1_2
    (broadcastInDim S1x64x1024 ![1, 2] bcast_S64x1024_S1x64x1024_1_2 w))

/-- The gather's table: row k holds x[n,c,k]·w[c,k] at column n·64 + c. -/
def table (x : FVec Ideal S256x64x1024 .f32) (w : FVec Ideal S64x1024 .f32) : FVec Ideal S1024x16384 .f32 :=
  transpose S1024x16384 [1, 0] (shapeCast S16384x1024 (xw x w) shapeCasts_S256x64x1024_S16384x1024)
    transposes_S16384x1024_S1024x16384_1_0

/-- The node indices with a negative one moved up by the table's height. -/
def wrapped (A : IVec S128x8 32) : IVec S128x8 32 :=
  select (cmpi .slt A (broadcastInDim S128x8 ![] bcast_S_S128x8 (constantI S_ 32 0#32)))
    (addi A (broadcastInDim S128x8 ![] bcast_S_S128x8 (constantI S_ 32 1024#32))) A

/-- The same as the gather's index tensor (a trailing axis of length one). -/
def startIdx (A : IVec S128x8 32) : IVec S128x8x1 32 :=
  broadcastInDim S128x8x1 ![0, 1] bcast_S128x8_S128x8x1_0_1 (wrapped A)

/-- Whether each (wrapped) index lies inside the table: 0 ≤ i ∧ i ≤ 1023. -/
def inBounds (A : IVec S128x8 32) : IVec S128x8 1 :=
  Host.reduce IntOp.andi
    (andi (cmpi .sge (startIdx A) (broadcastInDim S128x8x1 ![] bcast_S_S128x8x1 (constantI S_ 32 0#32)))
      (cmpi .sle (startIdx A) (broadcastInDim S128x8x1 ![0, 1, 2] bcast_S1x1x1_S128x8x1_0_1_2
        (broadcastInDim S1x1x1 ![2] bcast_S1_S1x1x1_2 (constantI S1 32 1023#32)))))
    (constantI S_ 1 1#1) reducesTo_S128x8x1_S128x8_d2 h_S_

/-- The rows taken from the table, a row whose index is out of range filled with NaN. -/
def taken (x : FVec Ideal S256x64x1024 .f32) (w : FVec Ideal S64x1024 .f32) (A : IVec S128x8 32) :
    FVec Ideal S128x8x16384 .f32 :=
  select (broadcastInDim S128x8x16384 ![0, 1] bcast_S128x8_S128x8x16384_0_1 (inBounds A))
    (Host.gather gather_S1024x16384_S128x8x1_S128x8x16384_2_0_n_n_0_2_116384 (table x w) (startIdx A))
    (broadcastInDim S128x8x16384 ![] bcast_S_S128x8x16384 (constant (F := Ideal) S_ .f32 0x7FC00000#32))

/-- The masked sum over the eight neighbours, as rows (q, n) by columns c. -/
def pooled (x : FVec Ideal S256x64x1024 .f32) (w : FVec Ideal S64x1024 .f32) (msk : FVec Ideal S128x8x1 .f32)
    (A : IVec S128x8 32) : FVec Ideal S32768x64 .f32 :=
  shapeCast S32768x64
    (Host.reduceAdd (F := Ideal)
      (mulf (broadcastInDim S128x8x16384 ![0, 1, 2] bcast_S128x8x1_S128x8x16384_0_1_2 msk) (taken x w A))
      (constant (F := Ideal) S_ .f32 0x00000000#32) reducesTo_S128x8x16384_S128x16384_d1 h_S_)
    shapeCasts_S128x16384_S32768x64

/-- The Euclidean norm of each row of v. -/
def rowNorm (v : FVec Ideal S64x64 .f32) : FVec Ideal S64x1 .f32 :=
  Host.sqrt (F := Ideal) (broadcastInDim S64x1 ![0] bcast_S64_S64x1_0
    (Host.reduceAdd (F := Ideal) (mulf v v) (constant (F := Ideal) S_ .f32 0x00000000#32) reducesTo_S64x64_S64_d1 h_S_))

/-- The normalized weight g·v / ‖v‖, transposed. -/
def weightT (v : FVec Ideal S64x64 .f32) (g : FVec Ideal S64x1 .f32) : FVec Ideal S64x64 .f32 :=
  transpose S64x64 [1, 0]
    (Host.divf (F := Ideal) (mulf (broadcastInDim S64x64 ![0, 1] bcast_S64x1_S64x64_0_1 g) v)
      (broadcastInDim S64x64 ![0, 1] bcast_S64x1_S64x64_0_1 (rowNorm v)))
    transposes_S64x64_S64x64_1_0

/-- What @main leaves in its result buffer, of the seven arguments' contents. -/
def result (x : FVec Ideal S256x64x1024 .f32) (w : FVec Ideal S64x1024 .f32) (v : FVec Ideal S64x64 .f32)
    (g : FVec Ideal S64x1 .f32) (b : FVec Ideal S1x64x128 .f32) (msk : FVec Ideal S128x8x1 .f32) (A : IVec S128x8 32) :
    FVec Ideal S256x64x128 .f32 :=
  addf
    (transpose S256x64x128 [1, 2, 0]
      (shapeCast S128x256x64
        (Host.dotGeneral (F := Ideal) dot_S32768x64_S64x64_S32768x64_1_0_0_1_n_n none (pooled x w msk A) (weightT v g))
        shapeCasts_S32768x64_S128x256x64)
      transposes_S128x256x64_S256x64x128_1_2_0)
    (broadcastInDim S256x64x128 ![0, 1, 2] bcast_S1x64x128_S256x64x128_0_1_2 b)

/-- The table row a (q, j) entry of the adjacency names, as a row of the 1024. -/
def node (A : IVec S128x8 32) (q : Fin 128) (j : Fin 8) : Fin 1024 :=
  ⟨(A (ValueIdx.ix2 q j)).toNat % 1024, Nat.mod_lt _ (by norm_num)⟩

/-! ## @main as a straight line -/

variable {F : FTy → Type} [FloatOps F]

/-- @main's forty-eight operations in order, each call's body listed at the call over that call's buffers. -/
abbrev ops : List (HloOp τ sig (Elt F)) :=
  [ unary main_arg1 main_v0 (broadcastInDim S1x64x1024 ![1, 2] bcast_S64x1024_S1x64x1024_1_2 : (⟨S64x1024, .f32⟩ : BufTy).Contents (Elt F) → (⟨S1x64x1024, .f32⟩ : BufTy).Contents (Elt F)),
    unary main_v0 main_v1 (broadcastInDim S256x64x1024 ![0, 1, 2] bcast_S1x64x1024_S256x64x1024_0_1_2 : (⟨S1x64x1024, .f32⟩ : BufTy).Contents (Elt F) → (⟨S256x64x1024, .f32⟩ : BufTy).Contents (Elt F)),
    binary main_arg0 main_v1 main_v2 (mulf : (⟨S256x64x1024, .f32⟩ : BufTy).Contents (Elt F) → (⟨S256x64x1024, .f32⟩ : BufTy).Contents (Elt F) → (⟨S256x64x1024, .f32⟩ : BufTy).Contents (Elt F)),
    reshape main_v2 main_v3 rfl shapeCasts_S256x64x1024_S16384x1024,
    unary main_v3 main_v4 ((transpose S1024x16384 [1, 0] · transposes_S16384x1024_S1024x16384_1_0) : (⟨S16384x1024, .f32⟩ : BufTy).Contents (Elt F) → (⟨S1024x16384, .f32⟩ : BufTy).Contents (Elt F)),
    TRef.nullary main_call0.c (constantI S_ 32 0#32),
    TRef.unary main_call0.c main_call0.v0 (broadcastInDim S128x8 ![] bcast_S_S128x8),
    TRef.binary (.of main_arg6) main_call0.v0 main_call0.v1 (cmpi .slt),
    TRef.nullary main_call0.c_0 (constantI S_ 32 1024#32),
    TRef.unary main_call0.c_0 main_call0.v2 (broadcastInDim S128x8 ![] bcast_S_S128x8),
    TRef.binary (.of main_arg6) main_call0.v2 main_call0.v3 addi,
    TRef.ternary main_call0.v1 main_call0.v3 (.of main_arg6) main_call0.call0.v0 select,
    TRef.unary main_call0.call0.v0 main_call0.v5 (broadcastInDim S128x8x1 ![0, 1] bcast_S128x8_S128x8x1_0_1),
    TRef.nullary main_call0.c_1 (constantI S1 32 1023#32),
    TRef.nullary main_call0.c_2 (constantI S_ 32 0#32),
    TRef.unary main_call0.c_2 main_call0.v6 (broadcastInDim S128x8x1 ![] bcast_S_S128x8x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S128x8x1 ![0, 1, 2] bcast_S1x1x1_S128x8x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S128x8x1_S128x8_d2 h_S_),
    TRef.binary (.of main_v4) main_call0.v5 main_call0.v13 (fun x i => Host.gather gather_S1024x16384_S128x8x1_S128x8x16384_2_0_n_n_0_2_116384 x i),
    TRef.unary main_call0.v12 main_call0.v14 (broadcastInDim S128x8x16384 ![0, 1] bcast_S128x8_S128x8x16384_0_1),
    TRef.nullary main_call0.cst (constant S_ .f32 0x7FC00000#32),
    TRef.unary main_call0.cst main_call0.v15 (broadcastInDim S128x8x16384 ![] bcast_S_S128x8x16384),
    TRef.ternary main_call0.v14 main_call0.v13 main_call0.v15 main_call0.v16 select,
    unary main_arg5 main_v6 (broadcastInDim S128x8x16384 ![0, 1, 2] bcast_S128x8x1_S128x8x16384_0_1_2 : (⟨S128x8x1, .f32⟩ : BufTy).Contents (Elt F) → (⟨S128x8x16384, .f32⟩ : BufTy).Contents (Elt F)),
    binary main_v6 main_v5 main_v7 (mulf : (⟨S128x8x16384, .f32⟩ : BufTy).Contents (Elt F) → (⟨S128x8x16384, .f32⟩ : BufTy).Contents (Elt F) → (⟨S128x8x16384, .f32⟩ : BufTy).Contents (Elt F)),
    nullary main_cst (constant S_ .f32 0x00000000#32),
    binary main_v7 main_cst main_v8 ((fun x v => Host.reduceAdd x v reducesTo_S128x8x16384_S128x16384_d1 h_S_) : (⟨S128x8x16384, .f32⟩ : BufTy).Contents (Elt F) → (⟨S_, .f32⟩ : BufTy).Contents (Elt F) → (⟨S128x16384, .f32⟩ : BufTy).Contents (Elt F)),
    reshape main_v8 main_v9 rfl shapeCasts_S128x16384_S32768x64,
    unary main_arg3 main_v10 (broadcastInDim S64x64 ![0, 1] bcast_S64x1_S64x64_0_1 : (⟨S64x1, .f32⟩ : BufTy).Contents (Elt F) → (⟨S64x64, .f32⟩ : BufTy).Contents (Elt F)),
    binary main_v10 main_arg2 main_v11 (mulf : (⟨S64x64, .f32⟩ : BufTy).Contents (Elt F) → (⟨S64x64, .f32⟩ : BufTy).Contents (Elt F) → (⟨S64x64, .f32⟩ : BufTy).Contents (Elt F)),
    TRef.binary (.of main_arg2) (.of main_arg2) main_call1.v0 mulf,
    TRef.nullary main_call1.cst (constant S_ .f32 0x00000000#32),
    TRef.binary main_call1.v0 main_call1.cst main_call1.v1 (fun x v => Host.reduceAdd x v reducesTo_S64x64_S64_d1 h_S_),
    TRef.unary main_call1.v1 main_call1.v2 (broadcastInDim S64x1 ![0] bcast_S64_S64x1_0),
    TRef.unary main_call1.v2 main_call1.v3 Host.sqrt,
    unary main_v12 main_v13 (broadcastInDim S64x64 ![0, 1] bcast_S64x1_S64x64_0_1 : (⟨S64x1, .f32⟩ : BufTy).Contents (Elt F) → (⟨S64x64, .f32⟩ : BufTy).Contents (Elt F)),
    binary main_v11 main_v13 main_v14 (Host.divf : (⟨S64x64, .f32⟩ : BufTy).Contents (Elt F) → (⟨S64x64, .f32⟩ : BufTy).Contents (Elt F) → (⟨S64x64, .f32⟩ : BufTy).Contents (Elt F)),
    unary main_v14 main_v15 ((transpose S64x64 [1, 0] · transposes_S64x64_S64x64_1_0) : (⟨S64x64, .f32⟩ : BufTy).Contents (Elt F) → (⟨S64x64, .f32⟩ : BufTy).Contents (Elt F)),
    binary main_v9 main_v15 main_v16 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    reshape main_v16 main_v17 rfl shapeCasts_S32768x64_S128x256x64,
    unary main_v17 main_v18 ((transpose S256x64x128 [1, 2, 0] · transposes_S128x256x64_S256x64x128_1_2_0) : (⟨S128x256x64, .f32⟩ : BufTy).Contents (Elt F) → (⟨S256x64x128, .f32⟩ : BufTy).Contents (Elt F)),
    unary main_arg4 main_v19 (broadcastInDim S256x64x128 ![0, 1, 2] bcast_S1x64x128_S256x64x128_0_1_2 : (⟨S1x64x128, .f32⟩ : BufTy).Contents (Elt F) → (⟨S256x64x128, .f32⟩ : BufTy).Contents (Elt F)),
    binary main_v18 main_v19 main_v20 (addf : (⟨S256x64x128, .f32⟩ : BufTy).Contents (Elt F) → (⟨S256x64x128, .f32⟩ : BufTy).Contents (Elt F) → (⟨S256x64x128, .f32⟩ : BufTy).Contents (Elt F)) ]

-- forty-eight binds re-associated: the rewrite under the chain recurses once per statement
set_option maxRecDepth 2048 in
/-- @main is that straight line: the two functions unfolded at their calls, sequencing reassociated. -/
theorem main_eq (c : Dev nD) : main (F := F) c = seq ops := by
  simp only [main, fn_take.body, fn_where.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., reshape_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., nullary_bufs_sub .., binary_bufs_sub .., reshape_bufs_sub ..,
    unary_bufs_sub .., binary_bufs_sub ..,
    binary_bufs_sub .., nullary_bufs_sub .., binary_bufs_sub .., unary_bufs_sub .., unary_bufs_sub ..,
    unary_bufs_sub .., binary_bufs_sub .., unary_bufs_sub .., binary_bufs_sub .., reshape_bufs_sub .., unary_bufs_sub ..,
    unary_bufs_sub .., binary_bufs_sub ..⟩

attribute [local irreducible] Host.reduce Host.reduceAdd Host.gather in
set_option maxRecDepth 8192 in
set_option maxHeartbeats 1600000 in
/-- The fold at the result buffer is the pure term: each operation's result at its own buffer is its function's
    value, at any other buffer what was there; the typed references' transports are the identity at literal references. -/
theorem result_eq (V : Valuation τ sig (Elt Ideal)) :
    after (ops (F := Ideal)) V (main_v20 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

set_option maxRecDepth 8192 in
/-- No operation writes an argument's buffer. -/
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig) := by
  refine ⟨?_, ?_, ?_, ?_, ?_, ?_, ?_⟩ <;> after_results_simp

/-- On every device, from any memory with zero counters: every weakly fair execution of @main terminates with the
    result buffer at the pure term of the arguments' launch contents and the seven arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v20)
          = result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run defs _ _).mono (fun _ h c =>
      have ha := args_eq (launchContents m c)
      ⟨(h c main_v20).trans (result_eq (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2⟩)
    (run_seq scopedRefs_eq scopedSems_eq defs main (fun _ => ops) main_eq (fun _ => ops_sub) m ρ)

end Cert.ReferenceIdeal.RefValue

end
-- ==== Proof.RefRead.lean ====
/- The idealized reference's result read at one output index (n, o, q): the sum over the 64 channels of the masked
   pooled product times the normalized weight, plus the bias. Only the index range 0 ≤ A < 1024 is used. -/
import proofs.«106361_g27376121544985_cont_9to1_1554_2_alg».proof.Proof.RefRun
import Idealize.ShloMosaic.Lib.ValueIdx
import Idealize.ShloMosaic.Lib.Pipeline.Value
import Idealize.ShloMosaic.PureOps.Ideal.Laws
import Idealize.ShloMosaic.Lib.ValueLayout
import Idealize.ShloMosaic.Lib.ReduceAll

noncomputable section

open scoped BigOperators

namespace Cert.ReferenceIdeal.RefValue

open Cert.ReferenceIdeal Cert.ReferenceIdeal.Gen Idealize.ShloMosaic Idealize.ShloMosaic.ValueIdx

/-! ## Words: an index known to lie in 0 … 1023 -/

/-- A word whose signed value is not negative is not signed-below zero. -/
theorem slt_zero_of_nonneg (a : BitVec 32) (h : 0 ≤ a.toInt) : IntOp.cmpi .slt a 0#32 = 0#1 := by
  have h0 : (0#32 : BitVec 32).toInt = 0 := by decide
  show BitVec.ofBool (decide (a.toInt < (0#32 : BitVec 32).toInt)) = 0#1
  rw [h0, decide_eq_false (by omega)]; rfl

/-- … it is signed-at-least zero, -/
theorem sge_zero_of_nonneg (a : BitVec 32) (h : 0 ≤ a.toInt) : IntOp.cmpi .sge a 0#32 = 1#1 := by
  have h0 : (0#32 : BitVec 32).toInt = 0 := by decide
  show BitVec.ofBool (decide ((0#32 : BitVec 32).toInt ≤ a.toInt)) = 1#1
  rw [h0, decide_eq_true h]; rfl

/-- … and below 1024 it is signed-at-most 1023. -/
theorem sle_1023_of_lt (a : BitVec 32) (h : a.toInt < 1024) : IntOp.cmpi .sle a 1023#32 = 1#1 := by
  have h0 : (1023#32 : BitVec 32).toInt = 1023 := by decide
  show BitVec.ofBool (decide (a.toInt ≤ (1023#32 : BitVec 32).toInt)) = 1#1
  rw [h0, decide_eq_true (by omega)]; rfl

/-- The signed value of such a word, as a natural, is its unsigned one. -/
theorem toInt_toNat_of_nonneg (a : BitVec 32) (h : 0 ≤ a.toInt) : a.toInt.toNat = a.toNat := by
  have hlt := a.isLt
  have e := BitVec.toInt_eq_toNat_cond a
  by_cases hc : 2 * a.toNat < 2 ^ 32
  · rw [if_pos hc] at e; omega
  · rw [if_neg hc] at e; omega

/-- In range, the node a (q, j) entry names is the entry itself. -/
theorem node_val (A : IVec S128x8 32) (q : Fin 128) (j : Fin 8)
    (h : 0 ≤ (A (ix2 q j)).toInt ∧ (A (ix2 q j)).toInt < 1024) :
    (node A q j).val = min (A (ix2 q j)).toInt.toNat 1023 := by
  have e := toInt_toNat_of_nonneg _ h.1
  show (A (ix2 q j)).toNat % 1024 = _
  omega

/-! ## The gather: rows of the table -/

/-- The gather's dimension numbers: operand axis 0 collapsed and indexed, axis 1 the offset axis. -/
abbrev G := gather_S1024x16384_S128x8x1_S128x8x16384_2_0_n_n_0_2_116384

/-- The gather at (q, j, m) is the table's row at the start index (q, j, 0), read signed and clamped into 0 … 1023,
    at column m. -/
theorem gather_row {α : Type} (tbl : S1024x16384.Idx → α) (idx : IVec S128x8x1 32) (q : Fin 128) (j : Fin 8)
    (m : Fin 16384) :
    Host.gather G tbl idx (ix3 q j m)
      = tbl (ix2 ⟨min (idx (ix3 q j 0)).toInt.toNat 1023, by omega⟩ m) := by
  unfold Host.gather
  have h0 : G.start (ix3 q j m) idx (0 : Fin 2) + G.batchCoord (ix3 q j m) (0 : Fin 2) + G.offCoord (ix3 q j m) (0 : Fin 2)
      = min (idx (ix3 q j 0)).toInt.toNat 1023 := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ G.startIndexMap from List.mem_singleton.mpr rfl)]
    have hsi : G.siIdx (ix3 q j m) ⟨List.idxOf (0 : Fin 2) G.startIndexMap,
        List.idxOf_lt_length_iff.2 (List.mem_singleton.mpr rfl)⟩ = ix3 q j 0 := by
      funext b; refine Fin.ext ?_
      match b with
      | ⟨0, _⟩ => rfl
      | ⟨1, _⟩ => rfl
      | ⟨2, _⟩ => rfl
    rw [hsi]
    rfl
  have h1 : G.start (ix3 q j m) idx (1 : Fin 2) + G.batchCoord (ix3 q j m) (1 : Fin 2) + G.offCoord (ix3 q j m) (1 : Fin 2)
      = m.val := by
    rw [GatherDims.batchCoord_eq_zero _ _ _ List.not_mem_nil, Nat.add_zero]
    have hst : G.start (ix3 q j m) idx (1 : Fin 2) = 0 := by
      unfold GatherDims.start
      rw [dif_neg (show (1 : Fin 2) ∉ G.startIndexMap by decide)]
    rw [hst, Nat.zero_add]
    unfold GatherDims.offCoord
    rw [dif_pos (show (1 : Fin 2) ∈ G.sKept by decide)]
    rfl
  refine congrArg tbl (funext fun a => Fin.ext ?_)
  match a with
  | ⟨0, _⟩ => exact h0
  | ⟨1, _⟩ => exact h1

/-! ## The index tensor and the in-bounds mask, in range -/

/-- In range the wrap is not taken: the start index at (q, j, 0) is the adjacency's entry. -/
theorem startIdx_apply (A : IVec S128x8 32) (q : Fin 128) (j : Fin 8) (h : 0 ≤ (A (ix2 q j)).toInt) :
    startIdx A (ix3 q j 0) = A (ix2 q j) := by
  have e : startIdx A (ix3 q j 0) = wrapped A (ix2 q j) :=
    broadcastInDim_apply _ _ (wrapped A) (ix3 q j 0) (ix2 q j)
      (fun a => match a with | ⟨0, _⟩ => rfl | ⟨1, _⟩ => rfl)
  rw [e]
  show Scalar.select (IntOp.cmpi .slt (A (ix2 q j)) 0#32) (IntOp.addi (A (ix2 q j)) 1024#32) (A (ix2 q j)) = _
  rw [slt_zero_of_nonneg _ h, select_zero]

/-- A fold over an index set of one element is the operation applied once. -/
theorem fold_fin_one {α : Type} (f : α → α → α) [Std.Commutative f] [Std.Associative f] (b : α) {n : Nat} (hn : n = 1)
    (g : Fin n → α) : (Finset.univ : Finset (Fin n)).fold f b g = f (g ⟨0, by omega⟩) b := by
  subst hn
  rw [Finset.univ_unique, Finset.fold_singleton]
  rfl

/-- In range the in-bounds bit is set. -/
theorem inBounds_apply (A : IVec S128x8 32) (q : Fin 128) (j : Fin 8)
    (h : 0 ≤ (A (ix2 q j)).toInt ∧ (A (ix2 q j)).toInt < 1024) : inBounds A (ix2 q j) = 1#1 := by
  have hr : S128x8x1.Reduces [2] S128x8 := by decide
  have hl : hr.lift (ix2 q j) ⟨0, by decide⟩ = ix3 q j 0 :=
    funext fun a => Fin.ext (match a with | ⟨0, _⟩ => rfl | ⟨1, _⟩ => rfl | ⟨2, _⟩ => rfl)
  unfold inBounds
  rw [Host.reduce_eq_fold_single IntOp.andi _ _ reducesTo_S128x8x1_S128x8_d2 hr h_S_ (ix2 q j),
    fold_fin_one IntOp.andi _ (rfl : S128x8x1.size 2 = 1), Function.comp_apply, hl]
  show IntOp.andi (IntOp.andi (IntOp.cmpi .sge (startIdx A (ix3 q j 0)) 0#32)
      (IntOp.cmpi .sle (startIdx A (ix3 q j 0)) 1023#32)) 1#1 = 1#1
  rw [startIdx_apply A q j h.1, sge_zero_of_nonneg _ h.1, sle_1023_of_lt _ h.2]
  rfl

/-- In range the taken entry at (q, j, n·64 + c) is the product x[n, c, a]·w[c, a] at the node a the entry names:
    the mask keeps the gathered row and the clamp leaves the index. -/
theorem taken_apply (x : FVec Ideal S256x64x1024 .f32) (w : FVec Ideal S64x1024 .f32) (A : IVec S128x8 32)
    (q : Fin 128) (j : Fin 8) (m : Fin 16384)
    (h : 0 ≤ (A (ix2 q j)).toInt ∧ (A (ix2 q j)).toInt < 1024) :
    taken x w A (ix3 q j m) = table x w (ix2 (node A q j) m) := by
  have eb : broadcastInDim S128x8x16384 ![0, 1] bcast_S128x8_S128x8x16384_0_1 (inBounds A) (ix3 q j m) = inBounds A (ix2 q j) :=
    broadcastInDim_apply _ _ (inBounds A) (ix3 q j m) (ix2 q j)
      (fun a => match a with | ⟨0, _⟩ => rfl | ⟨1, _⟩ => rfl)
  unfold taken
  rw [select_apply, eb, inBounds_apply A q j h, select_one, gather_row]
  refine congrArg (table x w) (congrArg (fun k => ix2 k m) (Fin.ext ?_))
  show min (startIdx A (ix3 q j 0)).toInt.toNat 1023 = (node A q j).val
  rw [startIdx_apply A q j h.1]
  exact (node_val A q j h).symm

/-! ## The table's entries -/

/-- x·w at (n, c, k): the weight's two broadcasts read back. -/
theorem xw_apply (x : FVec Ideal S256x64x1024 .f32) (w : FVec Ideal S64x1024 .f32) (n : Fin 256) (c : Fin 64)
    (k : Fin 1024) : xw x w (ix3 n c k) = x (ix3 n c k) * w (ix2 c k) := by
  have e1 : broadcastInDim S256x64x1024 ![0, 1, 2] bcast_S1x64x1024_S256x64x1024_0_1_2
      (broadcastInDim S1x64x1024 ![1, 2] bcast_S64x1024_S1x64x1024_1_2 w) (ix3 n c k)
      = broadcastInDim S1x64x1024 ![1, 2] bcast_S64x1024_S1x64x1024_1_2 w (ix3 (0 : Fin 1) c k) :=
    broadcastInDim_apply _ _ _ (ix3 n c k) (ix3 (0 : Fin 1) c k)
      (fun a => match a with | ⟨0, _⟩ => rfl | ⟨1, _⟩ => rfl | ⟨2, _⟩ => rfl)
  have e2 : broadcastInDim S1x64x1024 ![1, 2] bcast_S64x1024_S1x64x1024_1_2 w (ix3 (0 : Fin 1) c k) = w (ix2 c k) :=
    broadcastInDim_apply _ _ w (ix3 (0 : Fin 1) c k) (ix2 c k)
      (fun a => match a with | ⟨0, _⟩ => rfl | ⟨1, _⟩ => rfl)
  unfold xw
  rw [mulf_apply, e1, e2]

/-- The table at row k, column n·64 + c. -/
theorem table_apply (x : FVec Ideal S256x64x1024 .f32) (w : FVec Ideal S64x1024 .f32) (n : Fin 256) (c : Fin 64)
    (k : Fin 1024) (m : Fin 16384) (hm : m.val = n.val * 64 + c.val) :
    table x w (ix2 k m) = x (ix3 n c k) * w (ix2 c k) := by
  unfold table
  rw [transpose_apply _ _ transposes_S16384x1024_S1024x16384_1_0 (ix2 k m) (ix2 m k)
      (fun b => match b with | ⟨0, _⟩ => rfl | ⟨1, _⟩ => rfl),
    shapeCast_apply (xw x w) shapeCasts_S256x64x1024_S16384x1024 (ix2 m k) (ix3 n c k) (by
      rw [Shape.rowMajor_val_three, Shape.rowMajor_val_two]
      show (n.val * 64 + c.val) * 1024 + k.val = m.val * 1024 + k.val
      rw [hm]),
    xw_apply]

/-! ## The pooled rows -/

/-- The pooled entry at row q·256 + n, column c: the masked sum over the eight neighbours of the node products. -/
theorem pooled_apply (x : FVec Ideal S256x64x1024 .f32) (w : FVec Ideal S64x1024 .f32) (msk : FVec Ideal S128x8x1 .f32)
    (A : IVec S128x8 32)
    (hA : ∀ (q : Fin 128) (j : Fin 8), 0 ≤ (A (ix2 q j)).toInt ∧ (A (ix2 q j)).toInt < 1024)
    (n : Fin 256) (q : Fin 128) (c : Fin 64) (r : Fin 32768) (hr : r.val = q.val * 256 + n.val) :
    pooled x w msk A (ix2 r c)
      = 0 + ∑ j : Fin 8, msk (ix3 q j 0) * (x (ix3 n c (node A q j)) * w (ix2 c (node A q j))) := by
  have hR : S128x8x16384.Reduces [1] S128x16384 := by decide
  have hmlt : n.val * 64 + c.val < 16384 := by omega
  unfold pooled
  rw [shapeCast_apply _ shapeCasts_S128x16384_S32768x64 (ix2 r c) (ix2 q ⟨n.val * 64 + c.val, hmlt⟩) (by
      rw [Shape.rowMajor_val_two, Shape.rowMajor_val_two]
      show q.val * 16384 + (n.val * 64 + c.val) = r.val * 64 + c.val
      omega)]
  show Ideal.hostReduceAdd reducesTo_S128x8x16384_S128x16384_d1 _ (Ideal.ofBits .f32 0x00000000#32)
      (ix2 q ⟨n.val * 64 + c.val, hmlt⟩) = _
  rw [Ideal.hostReduceAdd_single reducesTo_S128x8x16384_S128x16384_d1 hR, Ideal.ofBits_zero_f32]
  have key : ∀ j : Fin 8,
      mulf (broadcastInDim S128x8x16384 ![0, 1, 2] bcast_S128x8x1_S128x8x16384_0_1_2 msk) (taken x w A)
          (hR.lift (ix2 q ⟨n.val * 64 + c.val, hmlt⟩) j)
        = msk (ix3 q j 0) * (x (ix3 n c (node A q j)) * w (ix2 c (node A q j))) := by
    intro j
    have hl : hR.lift (ix2 q ⟨n.val * 64 + c.val, hmlt⟩) j = ix3 q j ⟨n.val * 64 + c.val, hmlt⟩ :=
      funext fun a => Fin.ext (match a with | ⟨0, _⟩ => rfl | ⟨1, _⟩ => rfl | ⟨2, _⟩ => rfl)
    have em : broadcastInDim S128x8x16384 ![0, 1, 2] bcast_S128x8x1_S128x8x16384_0_1_2 msk
        (ix3 q j ⟨n.val * 64 + c.val, hmlt⟩) = msk (ix3 q j 0) :=
      broadcastInDim_apply _ _ msk _ (ix3 q j 0)
        (fun a => match a with | ⟨0, _⟩ => rfl | ⟨1, _⟩ => rfl | ⟨2, _⟩ => rfl)
    rw [hl, mulf_apply, em, taken_apply x w A q j _ (hA q j), table_apply x w n c (node A q j) _ rfl]
  exact congrArg (fun t => (0 : EReal) + t) (Finset.sum_congr rfl fun j _ => key j)

/-! ## The normalized weight -/

/-- The norm of row o of v. -/
theorem rowNorm_apply (v : FVec Ideal S64x64 .f32) (o : Fin 64) :
    rowNorm v (ix2 o 0) = Ideal.sqrt (0 + ∑ d : Fin 64, v (ix2 o d) * v (ix2 o d)) := by
  have hR : S64x64.Reduces [1] S64 := by decide
  have eb : broadcastInDim S64x1 ![0] bcast_S64_S64x1_0
      (Host.reduceAdd (F := Ideal) (mulf v v) (constant (F := Ideal) S_ .f32 0x00000000#32) reducesTo_S64x64_S64_d1 h_S_)
      (ix2 o 0)
      = Host.reduceAdd (F := Ideal) (mulf v v) (constant (F := Ideal) S_ .f32 0x00000000#32) reducesTo_S64x64_S64_d1 h_S_
        (ix1 o) :=
    broadcastInDim_apply _ _ _ (ix2 o 0) (ix1 o) (fun a => match a with | ⟨0, _⟩ => rfl)
  unfold rowNorm
  show Ideal.sqrt (broadcastInDim S64x1 ![0] bcast_S64_S64x1_0
      (Host.reduceAdd (F := Ideal) (mulf v v) (constant (F := Ideal) S_ .f32 0x00000000#32) reducesTo_S64x64_S64_d1 h_S_)
      (ix2 o 0)) = _
  rw [eb]
  show Ideal.sqrt (Ideal.hostReduceAdd reducesTo_S64x64_S64_d1 (mulf v v) (Ideal.ofBits .f32 0x00000000#32) (ix1 o)) = _
  rw [Ideal.hostReduceAdd_single reducesTo_S64x64_S64_d1 hR, Ideal.ofBits_zero_f32]
  have key : ∀ d : Fin 64, mulf v v (hR.lift (ix1 o) d) = v (ix2 o d) * v (ix2 o d) := by
    intro d
    have hl : hR.lift (ix1 o) d = ix2 o d :=
      funext fun a => Fin.ext (match a with | ⟨0, _⟩ => rfl | ⟨1, _⟩ => rfl)
    rw [hl, mulf_apply]
  exact congrArg (fun t => Ideal.sqrt ((0 : EReal) + t)) (Finset.sum_congr rfl fun d _ => key d)

/-- The transposed normalized weight at (c, o): g[o]·v[o, c] over the norm of row o. -/
theorem weightT_apply (v : FVec Ideal S64x64 .f32) (g : FVec Ideal S64x1 .f32) (c o : Fin 64) :
    weightT v g (ix2 c o)
      = Ideal.div (g (ix2 o 0) * v (ix2 o c)) (Ideal.sqrt (0 + ∑ d : Fin 64, v (ix2 o d) * v (ix2 o d))) := by
  have eg : broadcastInDim S64x64 ![0, 1] bcast_S64x1_S64x64_0_1 g (ix2 o c) = g (ix2 o 0) :=
    broadcastInDim_apply _ _ g (ix2 o c) (ix2 o 0) (fun a => match a with | ⟨0, _⟩ => rfl | ⟨1, _⟩ => rfl)
  have en : broadcastInDim S64x64 ![0, 1] bcast_S64x1_S64x64_0_1 (rowNorm v) (ix2 o c) = rowNorm v (ix2 o 0) :=
    broadcastInDim_apply _ _ (rowNorm v) (ix2 o c) (ix2 o 0) (fun a => match a with | ⟨0, _⟩ => rfl | ⟨1, _⟩ => rfl)
  unfold weightT
  rw [transpose_apply _ _ transposes_S64x64_S64x64_1_0 (ix2 c o) (ix2 o c)
      (fun b => match b with | ⟨0, _⟩ => rfl | ⟨1, _⟩ => rfl)]
  show Ideal.div (mulf (broadcastInDim S64x64 ![0, 1] bcast_S64x1_S64x64_0_1 g) v (ix2 o c))
      (broadcastInDim S64x64 ![0, 1] bcast_S64x1_S64x64_0_1 (rowNorm v) (ix2 o c)) = _
  rw [mulf_apply, eg, en, rowNorm_apply]

/-! ## The result at an index -/

/-- The contraction's dimension numbers: rows of the pooled matrix against rows of the transposed weight. -/
abbrev D := dot_S32768x64_S64x64_S32768x64_1_0_0_1_n_n

/-- THE RESULT AT (n, o, q): over the 64 channels, the masked pooled product times the normalized weight, plus the
    bias — under the index range alone. -/
theorem result_apply (x : FVec Ideal S256x64x1024 .f32) (w : FVec Ideal S64x1024 .f32) (v : FVec Ideal S64x64 .f32)
    (g : FVec Ideal S64x1 .f32) (b : FVec Ideal S1x64x128 .f32) (msk : FVec Ideal S128x8x1 .f32) (A : IVec S128x8 32)
    (hA : ∀ (q : Fin 128) (j : Fin 8), 0 ≤ (A (ix2 q j)).toInt ∧ (A (ix2 q j)).toInt < 1024)
    (n : Fin 256) (o : Fin 64) (q : Fin 128) :
    result x w v g b msk A (ix3 n o q)
      = (∑ c : Fin 64, (0 + ∑ j : Fin 8, msk (ix3 q j 0) * (x (ix3 n c (node A q j)) * w (ix2 c (node A q j))))
            * Ideal.div (g (ix2 o 0) * v (ix2 o c)) (Ideal.sqrt (0 + ∑ d : Fin 64, v (ix2 o d) * v (ix2 o d))))
          + b (ix3 0 o q) := by
  have hrlt : q.val * 256 + n.val < 32768 := by omega
  have ebias : broadcastInDim S256x64x128 ![0, 1, 2] bcast_S1x64x128_S256x64x128_0_1_2 b (ix3 n o q) = b (ix3 0 o q) :=
    broadcastInDim_apply _ _ b (ix3 n o q) (ix3 0 o q)
      (fun a => match a with | ⟨0, _⟩ => rfl | ⟨1, _⟩ => rfl | ⟨2, _⟩ => rfl)
  unfold result
  rw [addf_apply, ebias,
    transpose_apply _ _ transposes_S128x256x64_S256x64x128_1_2_0 (ix3 n o q) (ix3 q n o)
      (fun a => match a with | ⟨0, _⟩ => rfl | ⟨1, _⟩ => rfl | ⟨2, _⟩ => rfl),
    shapeCast_apply _ shapeCasts_S32768x64_S128x256x64 (ix3 q n o) (ix2 ⟨q.val * 256 + n.val, hrlt⟩ o) (by
      rw [Shape.rowMajor_val_two, Shape.rowMajor_val_three]
      show (q.val * 256 + n.val) * 64 + o.val = (q.val * 256 + n.val) * 64 + o.val
      rfl)]
  refine congrArg (fun t => t + b (ix3 0 o q)) ?_
  show FloatOps.dotGeneral D none .single (pooled x w msk A) (weightT v g) (ix2 ⟨q.val * 256 + n.val, hrlt⟩ o) = _
  rw [Ideal.dotGeneral_apply, ← Equiv.sum_comp (contrEquiv1 D 64 rfl rfl).symm]
  refine Finset.sum_congr rfl fun c _ => ?_
  have hl : D.lhsIdx (ix2 ⟨q.val * 256 + n.val, hrlt⟩ o) ((contrEquiv1 D 64 rfl rfl).symm c)
      = ix2 ⟨q.val * 256 + n.val, hrlt⟩ c :=
    funext fun a => Fin.ext (match a with
      | ⟨0, _⟩ => rfl
      | ⟨1, _⟩ => (D.lhsIdx_val_of_single (cl := 1) rfl _ _).trans (contrEquiv1_symm_val D 64 rfl rfl c))
  have hr : D.rhsIdx (ix2 ⟨q.val * 256 + n.val, hrlt⟩ o) ((contrEquiv1 D 64 rfl rfl).symm c) = ix2 c o :=
    funext fun a => Fin.ext (match a with
      | ⟨0, _⟩ => (D.rhsIdx_val_of_single (cr := 0) rfl _ _).trans (contrEquiv1_symm_val D 64 rfl rfl c)
      | ⟨1, _⟩ => rfl)
  rw [hl, hr, pooled_apply x w msk A hA n q c _ rfl, weightT_apply]

end Cert.ReferenceIdeal.RefValue

end
-- ==== Proof.PreFacts.lean ====
/-
  The precondition read back. The printed predicate is the conjunction of nine tests, each a
  jnp.all over an array of one-bit words: six tests |a| < +inf (one per float input), the two
  signed tests 0 ≤ A and A < 1024 on the index table, and the test that every row of v has a
  positive sum of squares. When the conjunction is the word 1, each test is 1 at every index, and
  each element test says: a float entry whose absolute value lies below +inf is a real number; an
  index word lies in [0, 1024) read signed; the sum over d of v[o,d]·v[o,d], started from 0, is
  positive.
-/
import proofs.«106361_g27376121544985_cont_9to1_1554_2_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.PreFacts

open Idealize.ShloMosaic Idealize.ShloMosaic.ValueIdx Cert.Pre_finite_inputs

instance : Subsingleton S_.Idx := ⟨fun a b => funext fun d => d.elim0⟩

/-- The f32 pattern 0x7F800000 is +inf. -/
theorem ofBits_inf : Ideal.ofBits .f32 0x7F800000#32 = (⊤ : EReal) := by
  simp [Ideal.ofBits, Ideal.ieee]

/-- An extended real whose absolute value is below +inf is a real number. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- The element test |a| < +inf, as printed, read back. -/
theorem real_of_test (a : EReal)
    (h : Ideal.cmp .olt (max a (-a)) (Ideal.ofBits .f32 0x7F800000#32) = 1#1) : ∃ r : ℝ, a = (r : EReal) := by
  rw [ofBits_inf] at h
  apply real_of_abs_lt_top
  unfold Ideal.cmp at h
  rw [ofBool_eq_one] at h
  exact of_decide_eq_true h

variable [Facts]
open Facts

/-- Summing a row of a [64, 64] array: the sum over the second axis at row o, started from init. -/
theorem rowSum (y : FVec Ideal S64x64 .f32) (init : FVec Ideal S_ .f32) (o : Fin 64) :
    Host.reduceAdd (F := Ideal) y init reducesTo_S64x64_S64_d1 h_S_ (ix1 o) = init ix0 + ∑ d : Fin 64, y (ix2 o d) := by
  have hR : S64x64.Reduces [1] S64 := by decide
  rw [hostReduceAdd_apply, Ideal.hostReduceAdd_single reducesTo_S64x64_S64_d1 hR]
  have hl : ∀ k : Fin 64, hR.lift (ix1 o) k = ix2 o k := fun k => by
    funext c
    match c with
    | ⟨0, _⟩ => exact Fin.ext rfl
    | ⟨1, _⟩ => exact Fin.ext rfl
  show init _ + ∑ k : Fin 64, y (hR.lift (ix1 o) k) = _
  rw [eq_ix0 (Shape.Idx.first _)]
  exact congrArg _ (Finset.sum_congr rfl fun k _ => congrArg y (hl k))

theorem of_pre (x : FVec Ideal S256x64x1024 .f32) (w : FVec Ideal S64x1024 .f32) (v : FVec Ideal S64x64 .f32)
    (g : FVec Ideal S64x1 .f32) (b : FVec Ideal S1x64x128 .f32) (msk : FVec Ideal S128x8x1 .f32) (A : IVec S128x8 32)
    (h : Cert.Pre_finite_inputs.fn (F := Ideal) x w v g b msk A = (fun _ => 1#1)) :
    (∀ i, ∃ r : ℝ, x i = (r : EReal)) ∧ (∀ i, ∃ r : ℝ, w i = (r : EReal)) ∧ (∀ i, ∃ r : ℝ, v i = (r : EReal))
      ∧ (∀ i, ∃ r : ℝ, g i = (r : EReal)) ∧ (∀ i, ∃ r : ℝ, b i = (r : EReal)) ∧ (∀ i, ∃ r : ℝ, msk i = (r : EReal))
      ∧ (∀ (q : Fin 128) (j : Fin 8), 0 ≤ (A (ix2 q j)).toInt ∧ (A (ix2 q j)).toInt < 1024)
      ∧ (∀ o : Fin 64, (0 : EReal) < 0 + ∑ d : Fin 64, v (ix2 o d) * v (ix2 o d)) := by
  have e := congrFun h ix0
  dsimp only [fn, fn_part1, fn_part2] at e
  simp only [andi, IntOp.andi_eq_one] at e
  obtain ⟨⟨⟨⟨⟨⟨⟨⟨hx, hw⟩, hv⟩, hg⟩, hb⟩, hm⟩, hA0⟩, hA1⟩, hvv⟩ := e
  refine ⟨fun i => ?_, fun i => ?_, fun i => ?_, fun i => ?_, fun i => ?_, fun i => ?_, fun q j => ⟨?_, ?_⟩, fun o => ?_⟩
  · exact real_of_test (x i) (Host.reduce_andi_all _ _ _ _ ix0 hx i)
  · exact real_of_test (w i) (Host.reduce_andi_all _ _ _ _ ix0 hw i)
  · exact real_of_test (v i) (Host.reduce_andi_all _ _ _ _ ix0 hv i)
  · exact real_of_test (g i) (Host.reduce_andi_all _ _ _ _ ix0 hg i)
  · exact real_of_test (b i) (Host.reduce_andi_all _ _ _ _ ix0 hb i)
  · exact real_of_test (msk i) (Host.reduce_andi_all _ _ _ _ ix0 hm i)
  · have t := Host.reduce_andi_all _ _ _ _ ix0 hA0 (ix2 q j)
    exact IntOp.cmpi_sge.1 t
  · have t := Host.reduce_andi_all _ _ _ _ ix0 hA1 (ix2 q j)
    exact IntOp.cmpi_slt.1 t
  · have t := Host.reduce_andi_all _ _ _ _ ix0 hvv (ix1 o)
    rw [cmpf_apply, rowSum, broadcastInDim_scalar_apply, constant_apply, Ideal.ofBits_zero_f32] at t
    have t2 : Ideal.cmp .ogt ((0 : EReal) + ∑ d : Fin 64, v (ix2 o d) * v (ix2 o d)) 0 = 1#1 := t
    unfold Ideal.cmp at t2
    rw [ofBool_eq_one] at t2
    exact of_decide_eq_true t2

end Cert.PreFacts

end
-- ==== Proof.Algebra.lean ====
/-
  The real-number algebra that joins the two arrangements of the computation.

  One arrangement contracts the products x·w of a row against a one-hot matrix
  M[k] = Σ_j (a j = k ? μ j : 0) over the long axis k, and scales by g·v·(1/√s); the other gathers
  the products at the indices a j, weights them by μ j, and scales by (g·v)/√s. Over the reals the
  one-hot contraction Σ_k u k · M[k] is Σ_j μ j · u (a j) (exchange the two sums; the inner sum
  over k has one surviving term), and for s > 0 the two scalings are the same real number. On
  extended reals every quantity here is the image of a real, and sums and products of images
  are images of sums and products, so the identity over ℝ carries over.
-/
import Idealize.ShloMosaic.PureOps.Ideal

noncomputable section

namespace Cert.FglAlgebra

open Idealize.ShloMosaic
open scoped BigOperators

/-! ## Images of reals: finite sums, products, a guarded term -/

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The image of a finite real sum of products is the sum of the products of the images. -/
theorem coe_sum_mul {ι : Type*} (s : Finset ι) (f g : ι → ℝ) :
    ((∑ i ∈ s, f i * g i : ℝ) : EReal) = ∑ i ∈ s, (f i : EReal) * (g i : EReal) := by
  rw [coe_sum]; exact Finset.sum_congr rfl fun i _ => EReal.coe_mul _ _

/-- A guarded image is the image of the guarded real. -/
theorem ite_coe (p : Prop) [Decidable p] (x : ℝ) :
    (if p then (x : EReal) else 0) = ((if p then x else 0 : ℝ) : EReal) := by
  split <;> simp

/-! ## The one-hot contraction over the reals -/

/-- Contracting u against the one-hot matrix of the indices a, weighted by μ, gathers u at the indices. -/
theorem onehot_contract {J K : ℕ} (u : Fin K → ℝ) (a : Fin J → Fin K) (μ : Fin J → ℝ) :
    ∑ k, u k * (∑ j, if a j = k then μ j else 0) = ∑ j, μ j * u (a j) := by
  simp_rw [Finset.mul_sum]
  rw [Finset.sum_comm]
  refine Finset.sum_congr rfl fun j _ => ?_
  simp_rw [mul_ite, mul_zero]
  rw [Finset.sum_ite_eq]
  simp [mul_comm]

/-! ## The inverse root at a positive real -/

/-- The inverse square root of a positive real, as an extended real, is the image of the real inverse root. -/
theorem rsqrt_of_pos {s : ℝ} (hs : 0 < s) : Ideal.rsqrt (s : EReal) = (((Real.sqrt s)⁻¹ : ℝ) : EReal) := by
  rw [Ideal.rsqrt_coe, if_neg (not_lt.2 hs.le), if_neg hs.ne']

/-- The square root of a positive real, as an extended real, is the image of the real root. -/
theorem sqrt_of_pos {s : ℝ} (hs : 0 < s) : Ideal.sqrt (s : EReal) = ((Real.sqrt s : ℝ) : EReal) := by
  rw [Ideal.sqrt_coe, if_neg (not_lt.2 hs.le)]

/-- Dividing a real by the root of a positive real is multiplying by the real inverse root. -/
theorem div_sqrt_of_pos {s : ℝ} (hs : 0 < s) (y : ℝ) :
    Ideal.div (y : EReal) (Ideal.sqrt (s : EReal)) = ((y * (Real.sqrt s)⁻¹ : ℝ) : EReal) := by
  have hne : Real.sqrt s ≠ 0 := (Real.sqrt_pos.2 hs).ne'
  rw [sqrt_of_pos hs, Ideal.div_coe hne, one_div, ← EReal.coe_mul]

/-! ## The joining law -/

/-- The eight-step accumulation from zero is the sum over the eight steps. -/
theorem accum8 {α : Type*} [AddCommMonoid α] (t : Fin 8 → α) :
    ((((((((0 + t 0) + t 1) + t 2) + t 3) + t 4) + t 5) + t 6) + t 7) = ∑ j, t j := by
  rw [Fin.sum_univ_eight, zero_add]

/-- The one-hot matrix entry accumulated in extended reals is the image of the real one. -/
theorem onehot_entry {J K : ℕ} (a : Fin J → Fin K) (μ : Fin J → ℝ) (k : Fin K) :
    (∑ j, if a j = k then (μ j : EReal) else 0) = ((∑ j, if a j = k then μ j else 0 : ℝ) : EReal) := by
  rw [coe_sum]; exact Finset.sum_congr rfl fun j _ => ite_coe _ _

/-- The joining law over the reals: contract-then-scale is gather-then-scale. -/
theorem joining_real {C J K : ℕ} (xw : Fin C → Fin K → ℝ) (μ : Fin J → ℝ) (a : Fin J → Fin K) (gv : Fin C → ℝ)
    (ρ β : ℝ) :
    (∑ c, (gv c * ρ) * (∑ k, xw c k * (∑ j, if a j = k then μ j else 0))) + β
      = (∑ c, (∑ j, μ j * xw c (a j)) * (gv c * ρ)) + β := by
  congr 1
  refine Finset.sum_congr rfl fun c _ => ?_
  rw [onehot_contract (xw c) a μ, mul_comm]

/-- THE JOINING LAW on extended reals, for real data and a positive s: the row of the one-hot contraction scaled by
    g·v·rsqrt(s) is the row of the weighted gather scaled by (g·v)/sqrt(s). -/
theorem joining {C J K : ℕ} (xw : Fin C → Fin K → ℝ) (μ : Fin J → ℝ) (a : Fin J → Fin K) (gv : Fin C → ℝ)
    {s : ℝ} (hs : 0 < s) (β : ℝ) :
    (∑ c, ((gv c : EReal) * Ideal.rsqrt (s : EReal))
        * (∑ k, (xw c k : EReal) * (∑ j, if a j = k then (μ j : EReal) else 0))) + (β : EReal)
      = (∑ c, (0 + ∑ j, (μ j : EReal) * (xw c (a j) : EReal))
        * Ideal.div (gv c : EReal) (Ideal.sqrt (s : EReal))) + (β : EReal) := by
  have hL : ∀ c, ((gv c : EReal) * Ideal.rsqrt (s : EReal))
        * (∑ k, (xw c k : EReal) * (∑ j, if a j = k then (μ j : EReal) else 0))
      = (((gv c * (Real.sqrt s)⁻¹) * (∑ k, xw c k * (∑ j, if a j = k then μ j else 0)) : ℝ) : EReal) := fun c => by
    rw [rsqrt_of_pos hs, ← EReal.coe_mul, EReal.coe_mul (gv c * _), coe_sum_mul]
    congr 1
    exact Finset.sum_congr rfl fun k _ => by rw [onehot_entry]
  have hR : ∀ c, (0 + ∑ j, (μ j : EReal) * (xw c (a j) : EReal)) * Ideal.div (gv c : EReal) (Ideal.sqrt (s : EReal))
      = (((∑ j, μ j * xw c (a j)) * (gv c * (Real.sqrt s)⁻¹) : ℝ) : EReal) := fun c => by
    rw [div_sqrt_of_pos hs, zero_add, ← coe_sum_mul, ← EReal.coe_mul]
  simp_rw [hL, hR]
  rw [← coe_sum, ← coe_sum, ← EReal.coe_add, ← EReal.coe_add, joining_real]

/-- The joining law with the one-hot entry written as the eight-step accumulation from zero (J = 8). -/
theorem joining8 {C K : ℕ} (xw : Fin C → Fin K → ℝ) (μ : Fin 8 → ℝ) (a : Fin 8 → Fin K) (gv : Fin C → ℝ)
    {s : ℝ} (hs : 0 < s) (β : ℝ) :
    (∑ c, ((gv c : EReal) * Ideal.rsqrt (s : EReal))
        * (∑ k, (xw c k : EReal) *
            ((((((((0 + (if a 0 = k then (μ 0 : EReal) else 0)) + (if a 1 = k then (μ 1 : EReal) else 0))
              + (if a 2 = k then (μ 2 : EReal) else 0)) + (if a 3 = k then (μ 3 : EReal) else 0))
              + (if a 4 = k then (μ 4 : EReal) else 0)) + (if a 5 = k then (μ 5 : EReal) else 0))
              + (if a 6 = k then (μ 6 : EReal) else 0)) + (if a 7 = k then (μ 7 : EReal) else 0)))) + (β : EReal)
      = (∑ c, (0 + ∑ j, (μ j : EReal) * (xw c (a j) : EReal))
        * Ideal.div (gv c : EReal) (Ideal.sqrt (s : EReal))) + (β : EReal) := by
  rw [← joining xw μ a gv hs β]
  congr 1
  refine Finset.sum_congr rfl fun c _ => ?_
  congr 1
  refine Finset.sum_congr rfl fun k _ => ?_
  congr 1
  exact accum8 (fun j => if a j = k then (μ j : EReal) else 0)

/-! ## The joining law stated on extended reals known to be real

The same law for data given as extended reals together with the fact that each is the image of a
real (what the precondition supplies), so that it applies to the arrays' entries as they stand. -/

/-- Products of images of reals are images of reals. -/
theorem real_mul {x y : EReal} (hx : ∃ r : ℝ, x = (r : EReal)) (hy : ∃ r : ℝ, y = (r : EReal)) :
    ∃ r : ℝ, x * y = (r : EReal) := by
  obtain ⟨p, rfl⟩ := hx; obtain ⟨q, rfl⟩ := hy; exact ⟨p * q, (EReal.coe_mul p q).symm⟩

/-- Sums of images of reals are images of reals. -/
theorem real_add {x y : EReal} (hx : ∃ r : ℝ, x = (r : EReal)) (hy : ∃ r : ℝ, y = (r : EReal)) :
    ∃ r : ℝ, x + y = (r : EReal) := by
  obtain ⟨p, rfl⟩ := hx; obtain ⟨q, rfl⟩ := hy; exact ⟨p + q, (EReal.coe_add p q).symm⟩

/-- Zero is the image of a real. -/
theorem real_zero : ∃ r : ℝ, (0 : EReal) = (r : EReal) := ⟨0, rfl⟩

/-- A finite sum of images of reals is the image of a real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- THE JOINING LAW for extended-real data each entry of which is the image of a real, S positive. -/
theorem joining_ereal {C J K : ℕ} (X : Fin C → Fin K → EReal) (Mu : Fin J → EReal) (a : Fin J → Fin K)
    (G : Fin C → EReal) (S B : EReal)
    (hX : ∀ c k, ∃ r : ℝ, X c k = (r : EReal)) (hMu : ∀ j, ∃ r : ℝ, Mu j = (r : EReal))
    (hG : ∀ c, ∃ r : ℝ, G c = (r : EReal)) (hS : ∃ r : ℝ, S = (r : EReal)) (hpos : 0 < S)
    (hB : ∃ r : ℝ, B = (r : EReal)) :
    (∑ c, (G c * Ideal.rsqrt S) * (∑ k, X c k * (∑ j, if a j = k then Mu j else 0))) + B
      = (∑ c, (0 + ∑ j, Mu j * X c (a j)) * Ideal.div (G c) (Ideal.sqrt S)) + B := by
  choose x hx using hX
  choose μ hμ using hMu
  choose g hg using hG
  obtain ⟨s, rfl⟩ := hS
  obtain ⟨β, rfl⟩ := hB
  obtain rfl : X = fun c k => (x c k : EReal) := funext fun c => funext fun k => hx c k
  obtain rfl : Mu = fun j => (μ j : EReal) := funext hμ
  obtain rfl : G = fun c => (g c : EReal) := funext hg
  have hs : 0 < s := by exact_mod_cast hpos
  exact joining x μ a g hs β

/-- The same with the one-hot entry written as the eight-step accumulation from zero. -/
theorem joining8_ereal {C K : ℕ} (X : Fin C → Fin K → EReal) (Mu : Fin 8 → EReal) (a : Fin 8 → Fin K)
    (G : Fin C → EReal) (S B : EReal)
    (hX : ∀ c k, ∃ r : ℝ, X c k = (r : EReal)) (hMu : ∀ j, ∃ r : ℝ, Mu j = (r : EReal))
    (hG : ∀ c, ∃ r : ℝ, G c = (r : EReal)) (hS : ∃ r : ℝ, S = (r : EReal)) (hpos : 0 < S)
    (hB : ∃ r : ℝ, B = (r : EReal)) :
    (∑ c, (G c * Ideal.rsqrt S) * (∑ k, X c k *
        ((((((((0 + (if a 0 = k then Mu 0 else 0)) + (if a 1 = k then Mu 1 else 0))
          + (if a 2 = k then Mu 2 else 0)) + (if a 3 = k then Mu 3 else 0))
          + (if a 4 = k then Mu 4 else 0)) + (if a 5 = k then Mu 5 else 0))
          + (if a 6 = k then Mu 6 else 0)) + (if a 7 = k then Mu 7 else 0)))) + B
      = (∑ c, (0 + ∑ j, Mu j * X c (a j)) * Ideal.div (G c) (Ideal.sqrt S)) + B := by
  rw [← joining_ereal X Mu a G S B hX hMu hG hS hpos hB]
  congr 1
  refine Finset.sum_congr rfl fun c _ => ?_
  congr 1
  refine Finset.sum_congr rfl fun k _ => ?_
  congr 1
  exact accum8 (fun j => if a j = k then Mu j else 0)

/-- THE BRIDGE between the two arrangements, on the entries as they stand: one batch row's products x·w, the mask
    row μ at the indices a, the output row's gain g and direction vv (whose squares sum to a positive number), the
    bias β. Left: the one-hot contraction scaled from the left by (g·v)·rsqrt(Σ v²). Right: the weighted gather scaled
    from the right by (g·v)/sqrt(0 + Σ v²). -/
theorem bridge {C K : ℕ} (xr wr : Fin C → Fin K → EReal) (μ : Fin 8 → EReal) (a : Fin 8 → Fin K) (g : EReal)
    (vv : Fin C → EReal) (β : EReal)
    (hx : ∀ c k, ∃ r : ℝ, xr c k = (r : EReal)) (hw : ∀ c k, ∃ r : ℝ, wr c k = (r : EReal))
    (hμ : ∀ j, ∃ r : ℝ, μ j = (r : EReal)) (hg : ∃ r : ℝ, g = (r : EReal)) (hv : ∀ c, ∃ r : ℝ, vv c = (r : EReal))
    (hβ : ∃ r : ℝ, β = (r : EReal)) (hs : (0 : EReal) < 0 + ∑ d, vv d * vv d) :
    (∑ c, ((g * vv c) * Ideal.rsqrt (∑ d, vv d * vv d)) * (∑ k, (xr c k * wr c k) *
        ((((((((0 + (if a 0 = k then μ 0 else 0)) + (if a 1 = k then μ 1 else 0))
          + (if a 2 = k then μ 2 else 0)) + (if a 3 = k then μ 3 else 0))
          + (if a 4 = k then μ 4 else 0)) + (if a 5 = k then μ 5 else 0))
          + (if a 6 = k then μ 6 else 0)) + (if a 7 = k then μ 7 else 0)))) + β
      = (∑ c, (0 + ∑ j, μ j * (xr c (a j) * wr c (a j)))
          * Ideal.div (g * vv c) (Ideal.sqrt (0 + ∑ d, vv d * vv d))) + β := by
  have hS : ∃ r : ℝ, (∑ d, vv d * vv d) = (r : EReal) := real_sum _ _ fun d => real_mul (hv d) (hv d)
  rw [zero_add] at hs
  have key := joining8_ereal (fun c k => xr c k * wr c k) μ a (fun c => g * vv c) (∑ d, vv d * vv d) β
    (fun c k => real_mul (hx c k) (hw c k)) hμ (fun c => real_mul hg (hv c)) hS hs hβ
  rw [zero_add (∑ d, vv d * vv d)]
  exact key

end Cert.FglAlgebra

end
-- ==== Proof.Join.lean ====
/-
  The two arrangements are one function.

  Under the precondition — every float input a real number, every adjacency word a node index 0 ≤ A[q, j] < 1024, every row
  of v with a positive sum of squares — the kernel's

      Σ_c ((g[o]·v[o,c]) · rsqrt(Σ_d v[o,d]²)) · (Σ_k (x[n,c,k]·w[c,k]) · M[k,q]) + bias[0,o,q]

  and the reference's

      Σ_c (0 + Σ_j mask[q,j]·(x[n,c,A[q,j]]·w[c,A[q,j]])) · ((g[o]·v[o,c]) / sqrt(0 + Σ_d v[o,d]²)) + bias[0,o,q]

  agree at every (n, o, q). In range, the kernel's compare of the row number k (as a 32-bit word) with the adjacency word
  holds exactly when the word's node index is k, so M[k, q] is the sum over j of the mask values whose node is k; contracting
  x·w against that one-hot sum picks out the gathered entries; and for a positive real s, rsqrt s is the reciprocal of sqrt s.
  Moving the real factor x·w across the finite sum and exchanging the two sums is algebra of real numbers, which is where
  finiteness is used.
-/
import proofs.«106361_g27376121544985_cont_9to1_1554_2_alg».proof.Proof.KArray
import proofs.«106361_g27376121544985_cont_9to1_1554_2_alg».proof.Proof.RefRead
import proofs.«106361_g27376121544985_cont_9to1_1554_2_alg».proof.Proof.PreFacts
import proofs.«106361_g27376121544985_cont_9to1_1554_2_alg».proof.Proof.Algebra

set_option maxRecDepth 16384

noncomputable section

open Idealize.ShloMosaic Idealize.ShloMosaic.TcCoe Idealize.SL.Sem
open Idealize.ShloMosaic.Pipeline (Dat)

namespace Cert.Proof.Join

open Idealize.ShloMosaic.ValueIdx
open Cert.KernelIdeal.Body (hot kerEntry kerY)
open Cert.ReferenceIdeal.RefValue (node result result_apply toInt_toNat_of_nonneg)

/-- For an adjacency word in range, the compare of row number k with the word selects the mask value exactly when the
    word's node index is k. -/
theorem hot_eq (a : BitVec 32) (ha : 0 ≤ a.toInt ∧ a.toInt < 1024) (k : Fin 1024) (μ : EReal) :
    hot k a μ = if (⟨a.toNat % 1024, Nat.mod_lt _ (by norm_num)⟩ : Fin 1024) = k then μ else 0 := by
  have hn : a.toNat < 1024 := by have := toInt_toNat_of_nonneg a ha.1; omega
  unfold hot
  by_cases h : (⟨a.toNat % 1024, Nat.mod_lt _ (by norm_num)⟩ : Fin 1024) = k
  · have hk : k.val = a.toNat := by rw [← h]; exact Nat.mod_eq_of_lt hn
    have e : BitVec.ofNat 32 k.val = a := by
      rw [hk]
      exact BitVec.eq_of_toNat_eq (by rw [BitVec.toNat_ofNat]; exact Nat.mod_eq_of_lt a.isLt)
    rw [if_pos h, e]
    show Scalar.select (BitVec.ofBool (a == a)) μ _ = μ
    rw [beq_self_eq_true]
    exact select_one _ _
  · have e : ¬ BitVec.ofNat 32 k.val = a := by
      intro e
      apply h
      apply Fin.ext
      show a.toNat % 1024 = k.val
      have := congrArg BitVec.toNat e
      rw [BitVec.toNat_ofNat] at this
      have hk := k.isLt
      omega
    rw [if_neg h]
    show Scalar.select (BitVec.ofBool (BitVec.ofNat 32 k.val == a)) μ _ = 0
    rw [beq_eq_false_iff_ne.mpr e]
    exact (select_zero _ _).trans TileForms.scalar_zero

/-- So the pooling matrix at (k, q) is the accumulation from zero of the mask values whose node is k. -/
theorem pool_eq (msk : FVec Ideal Cert.KernelIdeal.S128x8x1 .f32) (A : IVec Cert.KernelIdeal.S128x8 32)
    (hA : ∀ (q : Fin 128) (j : Fin 8), 0 ≤ (A (ix2 q j)).toInt ∧ (A (ix2 q j)).toInt < 1024) (k : Fin 1024) (q : Fin 128) :
    Cert.KernelIdeal.Body.pool msk A k q = ((((((((0 + (if node A q (0 : Fin 8) = k then msk (ix3 q (0 : Fin 8) (0 : Fin 1)) else 0)) + (if node A q (1 : Fin 8) = k then msk (ix3 q (1 : Fin 8) (0 : Fin 1)) else 0)) + (if node A q (2 : Fin 8) = k then msk (ix3 q (2 : Fin 8) (0 : Fin 1)) else 0)) + (if node A q (3 : Fin 8) = k then msk (ix3 q (3 : Fin 8) (0 : Fin 1)) else 0))
      + (if node A q (4 : Fin 8) = k then msk (ix3 q (4 : Fin 8) (0 : Fin 1)) else 0)) + (if node A q (5 : Fin 8) = k then msk (ix3 q (5 : Fin 8) (0 : Fin 1)) else 0)) + (if node A q (6 : Fin 8) = k then msk (ix3 q (6 : Fin 8) (0 : Fin 1)) else 0)) + (if node A q (7 : Fin 8) = k then msk (ix3 q (7 : Fin 8) (0 : Fin 1)) else 0)) := by
  unfold Cert.KernelIdeal.Body.pool
  rw [hot_eq _ (hA q 0), hot_eq _ (hA q 1), hot_eq _ (hA q 2), hot_eq _ (hA q 3), hot_eq _ (hA q 4), hot_eq _ (hA q 5),
    hot_eq _ (hA q 6), hot_eq _ (hA q 7), TileForms.scalar_zero]
  rfl

variable [Cert.Pre_finite_inputs.Facts]

/-- Under the precondition the kernel's function of the arguments is the reference's. -/
theorem kernel_eq_reference (x : FVec Ideal Cert.KernelIdeal.S256x64x1024 .f32) (w : FVec Ideal Cert.KernelIdeal.S64x1024 .f32)
    (v : FVec Ideal Cert.KernelIdeal.S64x64 .f32) (g : FVec Ideal Cert.KernelIdeal.S64x1 .f32) (b : FVec Ideal Cert.KernelIdeal.S1x64x128 .f32)
    (msk : FVec Ideal Cert.KernelIdeal.S128x8x1 .f32) (A : IVec Cert.KernelIdeal.S128x8 32)
    (h : Cert.Pre_finite_inputs.fn (F := Ideal) x w v g b msk A = (fun _ => 1#1)) :
    kerY x w v g b msk A = result x w v g b msk A := by
  obtain ⟨hx, hw, hv, hg, hb, hm, hA, hs⟩ := Cert.PreFacts.of_pre x w v g b msk A h
  funext y
  obtain ⟨n, o, q, rfl⟩ : ∃ (n : Fin 256) (o : Fin 64) (q : Fin 128), y = ix3 n o q := ⟨y 0, y 1, y 2, eq_ix3 y⟩
  rw [result_apply x w v g b msk A hA n o q]
  show kerEntry x w v g b msk A n o q = _
  unfold kerEntry
  simp only [pool_eq msk A hA]
  exact Cert.FglAlgebra.bridge (fun c k => x (ix3 n c k)) (fun c k => w (ix2 c k)) (fun j => msk (ix3 q j (0 : Fin 1)))
    (fun j => node A q j) (g (ix2 o (0 : Fin 1))) (fun c => v (ix2 o c)) (b (ix3 (0 : Fin 1) o q))
    (fun c k => hx _) (fun c k => hw _) (fun j => hm _) (hg _) (fun c => hv _) (hb _) (hs o)

end Cert.Proof.Join

end
-- ==== Proof.lean ====
/-
  The fused graph-pooling layer against its jnp reference, on the extended reals.

  The reference scales x by the weight table w, gathers the scaled rows at the adjacency's node indices (jnp.take: a
  negative index wrapped by 1024, an out-of-range one filled with NaN), sums each region's eight gathered rows under the
  mask, multiplies by the weight-normalized matrix g·v/‖v‖ and adds the bias. The kernel builds, once, the pooling matrix
  M[k, q] = Σ_j (A[q, j] = k ? mask[q, j] : 0) and the matrix W = g·v·rsqrt(Σ v²), keeps both in scratch memory across the
  grid, and at each of the thirty-two grid points multiplies eight batch rows of x ⊙ w by M and then by W, adding the bias.

  Stated domain: every float input finite; every adjacency word a node index, 0 ≤ A < 1024 (outside it the reference's own
  gather wraps or fills NaN while the kernel's compare matches no row); and every row of v of positive squared norm (on a
  zero row the reference divides 0 by 0). Inside it both programs compute

      y[n, o, q] = Σ_c (g[o]·v[o,c]/‖v[o,·]‖) · Σ_j mask[q,j]·x[n,c,A[q,j]]·w[c,A[q,j]] + bias[0,o,q].

  The three frames are the generated frame runs (the reference's from its run, read back operation by operation); the
  idealization rewrote nothing; the value claim sets the kernel's result array, read block by block off the grid and entry by
  entry off the body's matrix products, beside the reference's composed term read at an entry, and joins the two by the
  one-hot contraction law over the reals.
-/
import proofs.«106361_g27376121544985_cont_9to1_1554_2_alg».proof.Defs
import proofs.«106361_g27376121544985_cont_9to1_1554_2_alg».proof.Proof.Gen.Kernel
import proofs.«106361_g27376121544985_cont_9to1_1554_2_alg».proof.Proof.Gen.Kernel.Skeleton
import proofs.«106361_g27376121544985_cont_9to1_1554_2_alg».proof.Proof.Gen.Kernel.Launch
import proofs.«106361_g27376121544985_cont_9to1_1554_2_alg».proof.Proof.Gen.Kernel.Points
import proofs.«106361_g27376121544985_cont_9to1_1554_2_alg».proof.Proof.Gen.Kernel.Frame
import proofs.«106361_g27376121544985_cont_9to1_1554_2_alg».proof.Proof.Gen.KernelIdeal
import proofs.«106361_g27376121544985_cont_9to1_1554_2_alg».proof.Proof.Gen.KernelIdeal.Skeleton
import proofs.«106361_g27376121544985_cont_9to1_1554_2_alg».proof.Proof.Gen.KernelIdeal.Launch
import proofs.«106361_g27376121544985_cont_9to1_1554_2_alg».proof.Proof.Gen.KernelIdeal.Points
import proofs.«106361_g27376121544985_cont_9to1_1554_2_alg».proof.Proof.Gen.KernelIdeal.Frame
import proofs.«106361_g27376121544985_cont_9to1_1554_2_alg».proof.Proof.Gen.KernelIdeal.Value
import proofs.«106361_g27376121544985_cont_9to1_1554_2_alg».proof.Proof.Gen.ReferenceIdeal
import proofs.«106361_g27376121544985_cont_9to1_1554_2_alg».proof.Proof.Gen.Pre_finite_inputs
import proofs.«106361_g27376121544985_cont_9to1_1554_2_alg».proof.Proof.KArray
import proofs.«106361_g27376121544985_cont_9to1_1554_2_alg».proof.Proof.RefRun
import proofs.«106361_g27376121544985_cont_9to1_1554_2_alg».proof.Proof.Join
import Idealize.ShloMosaic.Adequacy
import Idealize.ShloMosaic.Init

noncomputable section

namespace Cert.Proof

open Idealize.ShloMosaic Idealize.SL.Sem

/-- The kernel as printed runs and leaves its arguments unchanged: its generated frame run. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result's value dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments, the kernel's result array ends at its function of the arguments and the
    reference's at its composed term of the same arguments; under the precondition these are one array. -/
theorem algebraic : Cert.algebraic_KernelIdeal_ReferenceIdeal := by
  intro m ρ m' ρ' hpre hagree
  refine ⟨fun c => Cert.KernelIdeal.Body.resultOf m c, Cert.KernelIdeal.Body.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6⟩ := hagree c
  rw [a0, a1, a2, a3, a4, a5, a6]
  exact (Cert.Proof.Join.kernel_eq_reference _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
